-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x4096x1 : Shape := ⟨4, ![1, 128, 4096, 1]⟩
abbrev S3x4096x4096 : Shape := ⟨3, ![3, 4096, 4096]⟩
abbrev S17x3x128x4096 : Shape := ⟨4, ![17, 3, 128, 4096]⟩
abbrev S384x128 : Shape := ⟨2, ![384, 128]⟩
abbrev S384 : Shape := ⟨1, ![384]⟩
abbrev S_ : Shape := ⟨0, ![]⟩

class Facts : Prop where
  bcast_S_S1x128x4096x1 : S_.BroadcastsInDim S1x128x4096x1 (![] : Fin 0 → Fin S1x128x4096x1.rank)
  reducesTo_S1x128x4096x1_S_d0_1_2_3 : S1x128x4096x1.ReducesTo [0, 1, 2, 3] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S17x3x128x4096 : S_.BroadcastsInDim S17x3x128x4096 (![] : Fin 0 → Fin S17x3x128x4096.rank)
  reducesTo_S17x3x128x4096_S_d0_1_2_3 : S17x3x128x4096.ReducesTo [0, 1, 2, 3] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S1x128x4096x1 .f32) (main_arg1 : FVec F S3x4096x4096 .f32) (main_arg2 : FVec F S17x3x128x4096 .f32) (main_arg3 : FVec F S384x128 .f32) (main_arg4 : FVec F S384 .f32) : IVec S_ 1 :=
  let main_v0 : FVec F S1x128x4096x1 .f32 := Host.absf main_arg0
  let main_cst : FVec F S_ .f32 := constant S_ .f32 0x7F800000#32
  let main_v1 : FVec F S1x128x4096x1 .f32 := broadcastInDim S1x128x4096x1 ![] bcast_S_S1x128x4096x1 main_cst
  let main_v2 : IVec S1x128x4096x1 1 := cmpf .olt main_v0 main_v1
  let main_c : IVec S_ 1 := constantI S_ 1 1#1
  let main_v3 : IVec S_ 1 := (fun x v => Host.reduce IntOp.andi x v reducesTo_S1x128x4096x1_S_d0_1_2_3 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S17x3x128x4096 .f32 := Host.absf main_arg2
  let main_cst_2 : FVec F S_ .f32 := constant S_ .f32 0x7F800000#32
  let main_v10 : FVec F S17x3x128x4096 .f32 := broadcastInDim S17x3x128x4096 ![] bcast_S_S17x3x128x4096 main_cst_2
  let main_v11 : IVec S17x3x128x4096 1 := cmpf .olt main_v9 main_v10
  let main_c_3 : IVec S_ 1 := constantI S_ 1 1#1
  let main_v12 : IVec S_ 1 := (fun x v => Host.reduce IntOp.andi x v reducesTo_S17x3x128x4096_S_d0_1_2_3 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_v13 main_v16
-- ==== Kernel.lean ====
abbrev S1x128x4096x1 : Shape := ⟨4, ![1, 128, 4096, 1]⟩
abbrev S3x4096x4096 : Shape := ⟨3, ![3, 4096, 4096]⟩
abbrev S17x3x128x4096 : Shape := ⟨4, ![17, 3, 128, 4096]⟩
abbrev S384x128 : Shape := ⟨2, ![384, 128]⟩
abbrev S384 : Shape := ⟨1, ![384]⟩
abbrev S128x4096 : Shape := ⟨2, ![128, 4096]⟩
abbrev S384x1 : Shape := ⟨2, ![384, 1]⟩
abbrev S1x4096x512 : Shape := ⟨3, ![1, 4096, 512]⟩
abbrev S16x1x128x512 : Shape := ⟨4, ![16, 1, 128, 512]⟩
abbrev S128x512 : Shape := ⟨2, ![128, 512]⟩
abbrev S128x128 : Shape := ⟨2, ![128, 128]⟩
abbrev S128x1 : Shape := ⟨2, ![128, 1]⟩
abbrev S4096x512 : Shape := ⟨2, ![4096, 512]⟩
abbrev S16x128x512 : Shape := ⟨3, ![16, 128, 512]⟩
abbrev S1x128x4096 : Shape := ⟨3, ![1, 128, 4096]⟩

abbrev nBuf : Space → Nat
  | .hbm => 9
  | .vmem => 10
  | .smem => 0
  | _ => 0

abbrev bufTy : (tb : Table) → Fin (tcTables nBuf tb) → BufTy
  | .hbm, ⟨0, _⟩ => ⟨S1x128x4096x1, .f32⟩
  | .hbm, ⟨1, _⟩ => ⟨S3x4096x4096, .f32⟩
  | .hbm, ⟨2, _⟩ => ⟨S17x3x128x4096, .f32⟩
  | .hbm, ⟨3, _⟩ => ⟨S384x128, .f32⟩
  | .hbm, ⟨4, _⟩ => ⟨S384, .f32⟩
  | .hbm, ⟨5, _⟩ => ⟨S128x4096, .f32⟩
  | .hbm, ⟨6, _⟩ => ⟨S384x1, .f32⟩
  | .hbm, ⟨7, _⟩ => ⟨S128x4096, .f32⟩
  | .hbm, ⟨8, _⟩ => ⟨S1x128x4096, .f32⟩
  | .local _ .vmem, ⟨0, _⟩ => ⟨S128x4096, .f32⟩
  | .local _ .vmem, ⟨1, _⟩ => ⟨S384x128, .f32⟩
  | .local _ .vmem, ⟨2, _⟩ => ⟨S384x1, .f32⟩
  | .local _ .vmem, ⟨3, _⟩ => ⟨S1x4096x512, .f32⟩
  | .local _ .vmem, ⟨4, _⟩ => ⟨S1x4096x512, .f32⟩
  | .local _ .vmem, ⟨5, _⟩ => ⟨S16x1x128x512, .f32⟩
  | .local _ .vmem, ⟨6, _⟩ => ⟨S16x1x128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | _, _ => ⟨S1x128x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0 : Index := 0#32
  ![v5.toNat, 0]
def k0_off2 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v8 : Index := Scalar.indexCast v4
  let c0_1 : Index := 0#32
  ![v8.toNat, 0]
def k0_cond2 (i : grid0.Coords) : BitVec 1 :=
  let arg1 : BitVec 32 := BitVec.ofNat 32 (i 1).val
  let c2_i32 : BitVec 32 := 2#32
  let v31 : BitVec 1 := Scalar.cmpi .eq arg1 c2_i32
  let v32 : BitVec 32 := Scalar.extui v31
  let c0_i32_17 : BitVec 32 := 0#32
  let v33 : BitVec 1 := Scalar.cmpi .ne v32 c0_i32_17
  v33

def k0_mult2 (i : grid0.Coords) : BitVec 32 :=
  let arg0 : BitVec 32 := BitVec.ofNat 32 (i 0).val
  let c512_i32 : BitVec 32 := 512#32
  let v34 : BitVec 32 := Scalar.muli arg0 c512_i32
  v34
def k0_off3 (i : grid0.Coords) : Fin 2 → Nat :=
  let c0_18 : Index := 0#32
  let arg0 : BitVec 32 := BitVec.ofNat 32 (i 0).val
  let c512_i32 : BitVec 32 := 512#32
  let v34 : BitVec 32 := Scalar.muli arg0 c512_i32
  let v35 : BitVec 32 := v34
  let v36 : Index := Scalar.indexCast v35
  ![0, v36.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1x128x4096x1_S128x4096 : S1x128x4096x1.ShapeCasts S128x4096
  shapeCasts_S384_S384x1 : S384.ShapeCasts S384x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S128x128 : 0 < S128x128.numel
  bitsLt_bf16_f32 : FTy.bits .bf16 < FTy.bits .f32
  h_S128x1 : 0 < S128x1.numel
  shapeCasts_S128x1_S128x1 : S128x1.ShapeCasts S128x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S128x1_S128x4096 : S128x1.Broadcasts S128x4096
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S16x1x128x512_S16x1x128x512_0_0_0_0 : ∀ a, (![0, 0, 0, 0] : Fin 4 → Nat) a + S16x1x128x512.size a ≤ S16x1x128x512.size a
  h_S16x1x128x512 : 0 < S16x1x128x512.numel
  shapeCasts_S16x1x128x512_S16x128x512 : S16x1x128x512.ShapeCasts S16x128x512
  reduces_S16x128x512_S128x512 : S16x128x512.Reduces [0] S128x512
  bcast_S128x4096_S1x128x4096_1_2 : S128x4096.BroadcastsInDim S1x128x4096 (![1, 2] : Fin 2 → Fin S1x128x4096.rank)
  dot_S128x128_S128x4096_S128x4096_1_0_0_1_n_n_wf : DotDims.WF S128x128 S128x4096 S128x4096 [1] [0] [0] [1] [] []
  dot_S128x4096_S4096x512_S128x512_1_0_0_1_n_n_wf : DotDims.WF S128x4096 S4096x512 S128x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x128.size a ≤ S384x128.size a
  k0_off2_inb : ∀ i : grid0.Coords, ∀ a, (k0_off2 i) a + S128x1.size a ≤ S384x1.size a
  k0_mult2_dvd : ∀ i : grid0.Coords, ∀ (k0_h2 : k0_cond2 i = 1#1), 512 ∣ (k0_mult2 i).toNat
  k0_off3_inb : ∀ i : grid0.Coords, ∀ (k0_h2 : k0_cond2 i = 1#1), ∀ a, (k0_off3 i) a + S128x512.size a ≤ S128x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x1.size a ≤ S384x1.size a
  hwx0_2 : ∀ i : grid0.Coords, EltTy.bits .f32 = 32 ∨ (Rect.block (s := S384x1) S384x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x512.size a ≤ S3x4096x4096.size a
  hwx0_3 : ∀ i : grid0.Coords, EltTy.bits .f32 = 32 ∨ (Rect.block (s := S3x4096x4096) S1x4096x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S16x1x128x512.size a < S17x3x128x4096.size a
  hwx0_4 : ∀ i : grid0.Coords, EltTy.bits .f32 = 32 ∨ (Rect.unit (s := S17x3x128x4096) (fun a => cc0_transform_4 i a * S16x1x128x512.size a) (fun a => (Pipeline.Clip.of (cc0_transform_4 i a) (S16x1x128x512.size a) (S17x3x128x4096.size a)).extent (S16x1x128x512.size a)) fun a => Pipeline.Clip.inb (Pipeline.Clip.ok_of (hstart0_4 i a))).WholeWords (EltTy.packing .f32)
  hwxs0_4 : ∀ i : grid0.Coords, EltTy.bits .f32 = 32 ∨ (Rect.unit (s := S16x1x128x512) (fun _ => 0) (fun a => (Pipeline.Clip.of (cc0_transform_4 i a) (S16x1x128x512.size a) (S17x3x128x4096.size a)).extent (S16x1x128x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x4096.size a
  hwx0_5 : ∀ i : grid0.Coords, EltTy.bits .f32 = 32 ∨ (Rect.block (s := S128x4096) S128x512.size (cc0_transform_5 i) (hinb0_5 i)).WholeWords (EltTy.packing .f32)

variable [Facts₀]

def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_arg2) S16x1x128x512.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v2) S128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x128x4096x1 : Shape := ⟨4, ![1, 128, 4096, 1]⟩
abbrev S3x4096x4096 : Shape := ⟨3, ![3, 4096, 4096]⟩
abbrev S17x3x128x4096 : Shape := ⟨4, ![17, 3, 128, 4096]⟩
abbrev S384x128 : Shape := ⟨2, ![384, 128]⟩
abbrev S384 : Shape := ⟨1, ![384]⟩
abbrev S128x4096 : Shape := ⟨2, ![128, 4096]⟩
abbrev S384x4096 : Shape := ⟨2, ![384, 4096]⟩
abbrev S384x1 : Shape := ⟨2, ![384, 1]⟩
abbrev S3x128x4096 : Shape := ⟨3, ![3, 128, 4096]⟩
abbrev S1x3x128x4096 : Shape := ⟨4, ![1, 3, 128, 4096]⟩
abbrev S16x3x128x4096 : Shape := ⟨4, ![16, 3, 128, 4096]⟩
abbrev S_ : Shape := ⟨0, ![]⟩
abbrev S1x128x4096 : Shape := ⟨3, ![1, 128, 4096]⟩

abbrev nBuf : Space → Nat
  | .hbm => 22
  | .vmem => 0
  | .smem => 0
  | _ => 0

abbrev bufTy : (tb : Table) → Fin (tcTables nBuf tb) → BufTy
  | .hbm, ⟨0, _⟩ => ⟨S1x128x4096x1, .f32⟩
  | .hbm, ⟨1, _⟩ => ⟨S3x4096x4096, .f32⟩
  | .hbm, ⟨2, _⟩ => ⟨S17x3x128x4096, .f32⟩
  | .hbm, ⟨3, _⟩ => ⟨S384x128, .f32⟩
  | .hbm, ⟨4, _⟩ => ⟨S384, .f32⟩
  | .hbm, ⟨5, _⟩ => ⟨S128x4096, .f32⟩
  | .hbm, ⟨6, _⟩ => ⟨S384x4096, .f32⟩
  | .hbm, ⟨7, _⟩ => ⟨S384x1, .f32⟩
  | .hbm, ⟨8, _⟩ => ⟨S384x4096, .f32⟩
  | .hbm, ⟨9, _⟩ => ⟨S384x4096, .f32⟩
  | .hbm, ⟨10, _⟩ => ⟨S3x128x4096, .f32⟩
  | .hbm, ⟨11, _⟩ => ⟨S3x128x4096, .f32⟩
  | .hbm, ⟨12, _⟩ => ⟨S1x3x128x4096, .f32⟩
  | .hbm, ⟨13, _⟩ => ⟨S16x3x128x4096, .f32⟩
  | .hbm, ⟨14, _⟩ => ⟨S17x3x128x4096, .f32⟩
  | .hbm, ⟨15, _⟩ => ⟨S_, .f32⟩
  | .hbm, ⟨16, _⟩ => ⟨S128x4096, .f32⟩
  | .hbm, ⟨17, _⟩ => ⟨S128x4096, .f32⟩
  | .hbm, ⟨18, _⟩ => ⟨S_, .f32⟩
  | .hbm, ⟨19, _⟩ => ⟨S128x4096, .f32⟩
  | .hbm, ⟨20, _⟩ => ⟨S128x4096, .f32⟩
  | .hbm, ⟨21, _⟩ => ⟨S1x128x4096, .f32⟩
  | _, _ => ⟨S1x128x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  shapeCasts_S1x128x4096x1_S128x4096 : S1x128x4096x1.ShapeCasts S128x4096
  bcast_S384_S384x1_0 : S384.BroadcastsInDim S384x1 (![0] : Fin 1 → Fin S384x1.rank)
  bcast_S384x1_S384x4096_0_1 : S384x1.BroadcastsInDim S384x4096 (![0, 1] : Fin 2 → Fin S384x4096.rank)
  shapeCasts_S384x4096_S3x128x4096 : S384x4096.ShapeCasts S3x128x4096
  bcast_S3x128x4096_S1x3x128x4096_1_2_3 : S3x128x4096.BroadcastsInDim S1x3x128x4096 (![1, 2, 3] : Fin 3 → Fin S1x3x128x4096.rank)
  slices_S17x3x128x4096_S16x3x128x4096_0_0_0_0 : S17x3x128x4096.Slices ![0, 0, 0, 0] S16x3x128x4096
  concatenates_S1x3x128x4096_S16x3x128x4096_S17x3x128x4096_d0 : Shape.Concatenates [S1x3x128x4096, S16x3x128x4096] S17x3x128x4096 0
  reducesTo_S17x3x128x4096_S128x4096_d0_1 : S17x3x128x4096.ReducesTo [0, 1] S128x4096
  h_S_ : 0 < S_.numel
  bcast_S_S128x4096 : S_.BroadcastsInDim S128x4096 (![] : Fin 0 → Fin S128x4096.rank)
  bcast_S128x4096_S1x128x4096_1_2 : S128x4096.BroadcastsInDim S1x128x4096 (![1, 2] : Fin 2 → Fin S1x128x4096.rank)
  dot_S384x128_S128x4096_S384x4096_1_0_0_1_n_n_wf : DotDims.WF S384x128 S128x4096 S384x4096 [1] [0] [0] [1] [] []
  dot_S3x128x4096_S3x4096x4096_S3x128x4096_2_1_1_2_0_0_wf : DotDims.WF S3x128x4096 S3x4096x4096 S3x128x4096 [2] [1] [1] [2] [0] [0]

variable [Facts₀]

def dot_S384x128_S128x4096_S384x4096_1_0_0_1_n_n : DotDims S384x128 S128x4096 S384x4096 where
  lhsContracting := [1]
  rhsContracting := [0]
  lhsNonContracting := [0]
  rhsNonContracting := [1]
  lhsBatch := []
  rhsBatch := []
  wf := dot_S384x128_S128x4096_S384x4096_1_0_0_1_n_n_wf
def dot_S3x128x4096_S3x4096x4096_S3x128x4096_2_1_1_2_0_0 : DotDims S3x128x4096 S3x4096x4096 S3x128x4096 where
  lhsContracting := [2]
  rhsContracting := [1]
  lhsNonContracting := [1]
  rhsNonContracting := [2]
  lhsBatch := [0]
  rhsBatch := [0]
  wf := dot_S3x128x4096_S3x4096x4096_S3x128x4096_2_1_1_2_0_0_wf

class Facts : Prop extends Facts₀ where

variable [Facts]
-- ==== Proof.KRuns.lean ====
/-
  The body of the fused kernel at one grid point, run symbolically on whole staging buffers, in each of the three
  control cases the grid meets. The grid is (column tile, partition) with the partition innermost, so a point's
  partition is its position modulo 3: at partition 0 the accumulator is first zeroed, at every partition the
  partition's product and its sixteen stacked frames are added to it, and at partition 2 the accumulator plus the
  residual columns, clamped below at zero, is stored to the output block. Each run records, as the list of
  rectangles stored, what the accumulator (and at partition 2 the output block) holds afterwards.
-/
import proofs.«122202_j86242943304449_2_alg».proof.Proof.Gen.Kernel.Frame
import proofs.«122202_j86242943304449_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first conditional's test: the partition coordinate is 0. -/
abbrev condZero (i : grid0.Coords) : Prop := (Scalar.cmpi .ne (Scalar.extui (Scalar.cmpi .eq (BitVec.ofNat 32 (i 1).val) 0#32)) 0#32) = 1#1
/-- It holds exactly at the points whose position is 0 modulo 3. -/
theorem hcondZero : ∀ t : Fin cfg0.N, condZero (grid0.coords t) ↔ t.val % 3 = 0 :=
  (by decide +kernel : ∀ t : Fin grid0.N, condZero (grid0.coords t) ↔ t.val % 3 = 0)

/-- The second conditional's test: the partition coordinate is 2, the last. -/
abbrev condLast (i : grid0.Coords) : Prop := k0_cond2 i = 1#1
/-- It holds exactly at the points whose position is 2 modulo 3. -/
theorem hcondLast : ∀ t : Fin cfg0.N, condLast (grid0.coords t) ↔ t.val % 3 = 2 :=
  (by decide +kernel : ∀ t : Fin grid0.N, condLast (grid0.coords t) ↔ t.val % 3 = 2)

/-! ## Where the output window is idle -/

/-- Away from the last partition the body stores nothing into the output block, -/
theorem idleOut : ∀ t : Fin cfg0.N, ¬condLast (grid0.coords t) → cfg0.idle 5 (grid0.coords t) = true := by decide +kernel
/-- and the block is not written back there; -/
theorem noFlushOut : ∀ t : Fin cfg0.N, ¬condLast (grid0.coords t) → (cfg0.win 5).flush t = false := by decide +kernel
/-- at the last partition it is stored. -/
theorem liveOut : ∀ t : Fin cfg0.N, condLast (grid0.coords t) → cfg0.idle 5 (grid0.coords t) = false := by decide +kernel

/-- The stacked-frames window takes frames 0..15 of 17 at every point: no block of it is cut at the array's end. -/
theorem clipFrames : ∀ t : Fin cfg0.N, ∀ a, (cfg0.win 4).clip (grid0.coords t) a = none :=
  (by decide +kernel : ∀ t : Fin grid0.N, ∀ a, win0_4.clip (grid0.coords t) a = none)

/-! ## The staging memrefs at a point -/

abbrev VOut : View sig .tc .vmem S128x512 .f32 := (Memref.whole cc0_stg5_0 : Memref sig .tc .vmem S128x512 .f32).view
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1x128x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x512 .f32 := win0_5.stage (cfg0.slots t 5)
abbrev hs5 (t : Fin cfg0.N) : (ms5 t).IsWhole := hstage0_5 ((cfg0.slots t 5).cast nbuf0_5)
/-- The accumulator: a whole scoped buffer of the kernel's own, carried from point to point. -/
abbrev accM : Memref sig .tc .vmem S128x512 .f32 := Memref.whole cc0_scratch0
abbrev VAcc : View sig .tc .vmem S128x512 .f32 := accM.view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The three runs -/

set_option maxHeartbeats 4000000 in
/-- Partition 0: the accumulator, found at anything, is zeroed and then has the partition's term added; the output
    block is handed back untouched. -/
noncomputable def runFirst (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : condZero i) (hc1 : ¬condLast i)
    (x0 : Vec F S128x4096 .f32) (x1 : Vec F S384x128 .f32) (x2 : Vec F S384x1 .f32) (x3 : Vec F S1x4096x512 .f32) (x4 : Vec F S16x1x128x512 .f32) :
    { LS : List (View.Piece (Elt F) S128x512 .f32) //
      ∀ (xi5 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg2 harg2 arg3 harg3 arg4 harg4 arg5 harg5 arg6 harg6 arg7 harg7 arg8 harg8) K } := by
  refine ⟨?_, fun xi5 E K => ?run⟩
  case run =>
    simp only [cc0__main_kernel_eq_skeleton]; unfold cc0__main_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- Partition 1: the accumulator, found at what the point before left, has the partition's term added; the output
    block is handed back untouched. -/
noncomputable def runMid (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : ¬condLast i)
    (x0 : Vec F S128x4096 .f32) (x1 : Vec F S384x128 .f32) (x2 : Vec F S384x1 .f32) (x3 : Vec F S1x4096x512 .f32) (x4 : Vec F S16x1x128x512 .f32) (xs : Vec F S128x512 .f32) :
    { LS : List (View.Piece (Elt F) S128x512 .f32) //
      ∀ (xi5 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg2 harg2 arg3 harg3 arg4 harg4 arg5 harg5 arg6 harg6 arg7 harg7 arg8 harg8) K } := by
  refine ⟨?_, fun xi5 E K => ?run⟩
  case run =>
    simp only [cc0__main_kernel_eq_skeleton]; unfold cc0__main_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- Partition 2: the accumulator has the partition's term added, and the output block, found at anything, is stored
    the accumulator plus the residual columns clamped below at zero. -/
noncomputable def runLast (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) :
    Σ' (LO : List (View.Piece (Elt F) S128x512 .f32)), { LS : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg2 harg2 arg3 harg3 arg4 harg4 arg5 harg5 arg6 harg6 arg7 harg7 arg8 harg8) K } := by
  refine ⟨?_, ?_, fun E K => ?run⟩
  case run =>
    simp only [cc0__main_kernel_eq_skeleton]; unfold cc0__main_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Body

end
-- ==== Proof.KFrame.lean ====
/-
  The frame of the fused kernel's program, and what its result array holds. The accumulator is tracked point by
  point: after the point at position n it holds what the case selected by n modulo 3 leaves, computed from the
  point's input blocks and (away from partition 0) from what the point before left. The output block is stored
  only at partition 2, where it is written back; elsewhere it is idle. With these proof data the body's three
  runs discharge the per-point obligation, and the launch theorem gives the run of the whole program.
-/
import proofs.«122202_j86242943304449_2_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The accumulator after a point of partition 0: the stored rectangles read back. -/
def accFirst (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : condZero i) (hc1 : ¬condLast i)
    (x0 : Vec F S128x4096 .f32) (x1 : Vec F S384x128 .f32) (x2 : Vec F S384x1 .f32) (x3 : Vec F S1x4096x512 .f32) (x4 : Vec F S16x1x128x512 .f32) : Vec F S128x512 .f32 :=
  VAcc.read (Elt F) (VAcc.writes (Elt F) VAcc.junk (runFirst c i arg2 harg2 arg3 harg3 arg4 harg4 arg5 harg5 arg6 harg6 arg7 harg7 arg8 harg8 hc0 hc1 x0 x1 x2 x3 x4).1)
/-- Those rectangles cover the accumulator. -/
theorem coverFirst (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : condZero i) (hc1 : ¬condLast i)
    (x0 : Vec F S128x4096 .f32) (x1 : Vec F S384x128 .f32) (x2 : Vec F S384x1 .f32) (x3 : Vec F S1x4096x512 .f32) (x4 : Vec F S16x1x128x512 .f32) (y : S128x512.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S128x512.size (by sl_kernel_rfl) y

/-- The accumulator after a point of partition 1. -/
def accMid (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : ¬condLast i)
    (x0 : Vec F S128x4096 .f32) (x1 : Vec F S384x128 .f32) (x2 : Vec F S384x1 .f32) (x3 : Vec F S1x4096x512 .f32) (x4 : Vec F S16x1x128x512 .f32) (xs : Vec F S128x512 .f32) : Vec F S128x512 .f32 :=
  VAcc.read (Elt F) (VAcc.writes (Elt F) VAcc.junk (runMid c i arg2 harg2 arg3 harg3 arg4 harg4 arg5 harg5 arg6 harg6 arg7 harg7 arg8 harg8 hc0 hc1 x0 x1 x2 x3 x4 xs).1)
theorem coverMid (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : ¬condLast i)
    (x0 : Vec F S128x4096 .f32) (x1 : Vec F S384x128 .f32) (x2 : Vec F S384x1 .f32) (x3 : Vec F S1x4096x512 .f32) (x4 : Vec F S16x1x128x512 .f32) (xs : Vec F S128x512 .f32) (y : S128x512.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S128x512.size (by sl_kernel_rfl) y

/-- The accumulator after a point of partition 2, -/
def accLast (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) : Vec F S128x512 .f32 :=
  VAcc.read (Elt F) (VAcc.writes (Elt F) VAcc.junk (runLast c i arg2 harg2 arg3 harg3 arg4 harg4 arg5 harg5 arg6 harg6 arg7 harg7 arg8 harg8 hc0 hc1 x0 x1 x2 x3 x4 xs).2.1)
theorem coverLastAcc (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) (y : S128x512.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S128x512.size (by sl_kernel_rfl) y
/-- and the output block there. -/
def outLast (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) : Vec F S128x512 .f32 :=
  VOut.read (Elt F) (VOut.writes (Elt F) VOut.junk (runLast c i arg2 harg2 arg3 harg3 arg4 harg4 arg5 harg5 arg6 harg6 arg7 harg7 arg8 harg8 hc0 hc1 x0 x1 x2 x3 x4 xs).1)
theorem coverLastOut (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) (y : S128x512.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S128x512.size (by sl_kernel_rfl) y

/-- A stand-in for the output block at the points that do not store it: nothing reads it. -/
def outIdle : Vec F S128x512 .f32 := VOut.read (Elt F) VOut.junk

/-- The sixteen stacked frames of the point's partition and column tile, as the whole staging buffer holds them
    (the block is never cut, so nothing of the filler shows). -/
def framesAt (c : Dev nD) (t : Fin cfg0.N) : Vec F S16x1x128x512 .f32 :=
  (cfg0.win 4).fill (grid0.coords t) (fun _ => Scalar.ofBits .f32 0#32) (iblk m c 4 t)

/-! ## The accumulation, point by point -/

/-- What the output block and the accumulator hold after the point at position `n`. -/
def outsAt (c : Dev nD) : (n : ℕ) → n < cfg0.N → Vec F S128x512 .f32 × Vec F S128x512 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondZero ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩) (iblk m c 3 ⟨0, hn⟩) (framesAt m c ⟨0, hn⟩))
  | n + 1, hn =>
    if h0 : (n + 1) % 3 = 0 then
      (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondZero ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩) (framesAt m c ⟨n + 1, hn⟩))
    else if h1 : (n + 1) % 3 = 2 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZero ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (framesAt m c ⟨n + 1, hn⟩) (outsAt c n (Nat.lt_of_succ_lt hn)).2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZero ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (framesAt m c ⟨n + 1, hn⟩) (outsAt c n (Nat.lt_of_succ_lt hn)).2)
    else
      (outIdle, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZero ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (framesAt m c ⟨n + 1, hn⟩) (outsAt c n (Nat.lt_of_succ_lt hn)).2)

theorem outsAt_first (c : Dev nD) (t : Fin cfg0.N) (h0 : t.val % 3 = 0) :
    outsAt m c t.val t.isLt = (outIdle, accFirst c (grid0.coords t) (ms0 t) (hs0 t) (ms1 t) (hs1 t) (ms2 t) (hs2 t) (ms3 t) (hs3 t) (ms4 t) (hs4 t) (ms5 t) (hs5 t) accM (Memref.isWhole_whole _) ((hcondZero t).mpr h0) (fun h => absurd ((hcondLast t).mp h) (by omega)) (iblk m c 0 t) (iblk m c 1 t) (iblk m c 2 t) (iblk m c 3 t) (framesAt m c t)) := by
  obtain ⟨n, hn⟩ := t
  cases n with
  | zero => exact rfl
  | succ n => exact (dif_pos h0).trans rfl

theorem outsAt_last (c : Dev nD) (t : Fin cfg0.N) (h0 : ¬t.val % 3 = 0) (h1 : t.val % 3 = 2) :
    outsAt m c t.val t.isLt = (outLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondZero t).mp h)) ((hcondLast t).mpr h1) (iblk m c 0 t) (iblk m c 1 t) (iblk m c 2 t) (iblk m c 3 t) (framesAt m c t) (outsAt m c (t.val - 1) (Nat.lt_of_le_of_lt (Nat.sub_le _ _) t.isLt)).2,
       accLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondZero t).mp h)) ((hcondLast t).mpr h1) (iblk m c 0 t) (iblk m c 1 t) (iblk m c 2 t) (iblk m c 3 t) (framesAt m c t) (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt_mid (c : Dev nD) (t : Fin cfg0.N) (h0 : ¬t.val % 3 = 0) (h1 : ¬t.val % 3 = 2) :
    outsAt m c t.val t.isLt = (outIdle, accMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondZero t).mp h)) (fun h => h1 ((hcondLast t).mp h)) (iblk m c 0 t) (iblk m c 1 t) (iblk m c 2 t) (iblk m c 3 t) (framesAt m c t) (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- The region's invariant before position `n`: before the first point the accumulator holds anything; afterwards
    what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => framesAt m c t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = framesAt m c t := by dsimp only [dats]
theorem after_5 (c : Dev nD) (t : Fin cfg0.N) : (dats m 0 c).after 5 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- The stacked-frames window is fetched at every point and never cut: its buffer holds the block, whatever it
    held before. -/
theorem before_4 (c : Dev nD) (t : Fin cfg0.N) (d) : (dats m 0 c).before 4 t d = framesAt m c t := by
  rw [(dats m 0 c).before_fetched 4 t (fetch0_4 t) d]
  unfold Dat.fetched Dat.blockOf framesAt iblk
  rw [A_eq m c 4]
  exact Pipeline.fill_of_clip_none 4 _ (clipFrames t) _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (framesAt m c t) := by
  unfold Dat.leavesExact; rw [show cfg0.idle 4 (cfg0.grid.coords t) = false from rfl, after_4]

set_option maxHeartbeats 4800000 in
/-- The body at any point: the inputs' buffers hold their blocks; the position modulo 3 says which case the point is
    in; that case's run applies, handing the accumulator over at what the point before left (anything at the first
    point) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 24 := lt_of_lt_of_eq t.isLt (show cfg0.N = 24 from N_0)
  by_cases h0 : t.val % 3 = 0
  · have hc0 : condZero (grid0.coords t) := (hcondZero t).mpr h0
    have hc1 : ¬condLast (grid0.coords t) := fun h => absurd ((hcondLast t).mp h) (by omega)
    rw [Dat.leavesExact_idle (dats m 0 c) 5 t (idleOut t hc1) (noFlushOut t hc1)]
    rw [outsAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ hc0 hc1 (iblk m c 0 t) (iblk m c 1 t) (iblk m c 2 t) (iblk m c 3 t) (framesAt m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ hc0 hc1 (iblk m c 0 t) (iblk m c 1 t) (iblk m c 2 t) (iblk m c 3 t) (framesAt m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬condZero (grid0.coords t) := fun h => h0 ((hcondZero t).mp h)
    have hz : t.val ≠ 0 := fun h => h0 (by rw [h])
    by_cases h1 : t.val % 3 = 2
    · have hc1 : condLast (grid0.coords t) := (hcondLast t).mpr h1
      rw [show (dats m 0 c).leavesExact 5 t = owns (c : Thread nD τ) (ms5 t) fullShare ((dats m 0 c).after 5 t) from by
        unfold Dat.leavesExact; rw [liveOut t hc1], after_5]
      rw [outsAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ hc0 hc1 (iblk m c 0 t) (iblk m c 1 t) (iblk m c 2 t) (iblk m c 3 t) (framesAt m c t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastOut c _ _ _ _ _ _ _ _ _ _ _ _ _ _ _ _ _ _ _ _ _ _ _)
    · have hc1 : ¬condLast (grid0.coords t) := fun h => h1 ((hcondLast t).mp h)
      rw [Dat.leavesExact_idle (dats m 0 c) 5 t (idleOut t hc1) (noFlushOut t hc1)]
      rw [outsAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ hc0 hc1 (iblk m c 0 t) (iblk m c 1 t) (iblk m c 2 t) (iblk m c 3 t) (framesAt m c t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 24 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates without a fault; the result array ends at what the proof
    data compute from the write-backs, and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KIRuns.lean ====
/-
  The body of the fused kernel at one grid point, run symbolically on whole staging buffers, in each of the three
  control cases the grid meets. The grid is (column tile, partition) with the partition innermost, so a point's
  partition is its position modulo 3: at partition 0 the accumulator is first zeroed, at every partition the
  partition's product and its sixteen stacked frames are added to it, and at partition 2 the accumulator plus the
  residual columns, clamped below at zero, is stored to the output block. Each run records, as the list of
  rectangles stored, what the accumulator (and at partition 2 the output block) holds afterwards.
-/
import proofs.«122202_j86242943304449_2_alg».proof.Proof.Gen.KernelIdeal.Frame
import proofs.«122202_j86242943304449_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first conditional's test: the partition coordinate is 0. -/
abbrev condZero (i : grid0.Coords) : Prop := (Scalar.cmpi .ne (Scalar.extui (Scalar.cmpi .eq (BitVec.ofNat 32 (i 1).val) 0#32)) 0#32) = 1#1
/-- It holds exactly at the points whose position is 0 modulo 3. -/
theorem hcondZero : ∀ t : Fin cfg0.N, condZero (grid0.coords t) ↔ t.val % 3 = 0 :=
  (by decide +kernel : ∀ t : Fin grid0.N, condZero (grid0.coords t) ↔ t.val % 3 = 0)

/-- The second conditional's test: the partition coordinate is 2, the last. -/
abbrev condLast (i : grid0.Coords) : Prop := k0_cond2 i = 1#1
/-- It holds exactly at the points whose position is 2 modulo 3. -/
theorem hcondLast : ∀ t : Fin cfg0.N, condLast (grid0.coords t) ↔ t.val % 3 = 2 :=
  (by decide +kernel : ∀ t : Fin grid0.N, condLast (grid0.coords t) ↔ t.val % 3 = 2)

/-! ## Where the output window is idle -/

/-- Away from the last partition the body stores nothing into the output block, -/
theorem idleOut : ∀ t : Fin cfg0.N, ¬condLast (grid0.coords t) → cfg0.idle 5 (grid0.coords t) = true := by decide +kernel
/-- and the block is not written back there; -/
theorem noFlushOut : ∀ t : Fin cfg0.N, ¬condLast (grid0.coords t) → (cfg0.win 5).flush t = false := by decide +kernel
/-- at the last partition it is stored. -/
theorem liveOut : ∀ t : Fin cfg0.N, condLast (grid0.coords t) → cfg0.idle 5 (grid0.coords t) = false := by decide +kernel

/-- The stacked-frames window takes frames 0..15 of 17 at every point: no block of it is cut at the array's end. -/
theorem clipFrames : ∀ t : Fin cfg0.N, ∀ a, (cfg0.win 4).clip (grid0.coords t) a = none :=
  (by decide +kernel : ∀ t : Fin grid0.N, ∀ a, win0_4.clip (grid0.coords t) a = none)

/-! ## The staging memrefs at a point -/

abbrev VOut : View sig .tc .vmem S128x512 .f32 := (Memref.whole cc0_stg5_0 : Memref sig .tc .vmem S128x512 .f32).view
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1x128x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x512 .f32 := win0_5.stage (cfg0.slots t 5)
abbrev hs5 (t : Fin cfg0.N) : (ms5 t).IsWhole := hstage0_5 ((cfg0.slots t 5).cast nbuf0_5)
/-- The accumulator: a whole scoped buffer of the kernel's own, carried from point to point. -/
abbrev accM : Memref sig .tc .vmem S128x512 .f32 := Memref.whole cc0_scratch0
abbrev VAcc : View sig .tc .vmem S128x512 .f32 := accM.view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The three runs -/

set_option maxHeartbeats 4000000 in
/-- Partition 0: the accumulator, found at anything, is zeroed and then has the partition's term added; the output
    block is handed back untouched. -/
noncomputable def runFirst (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : condZero i) (hc1 : ¬condLast i)
    (x0 : Vec F S128x4096 .f32) (x1 : Vec F S384x128 .f32) (x2 : Vec F S384x1 .f32) (x3 : Vec F S1x4096x512 .f32) (x4 : Vec F S16x1x128x512 .f32) :
    { LS : List (View.Piece (Elt F) S128x512 .f32) //
      ∀ (xi5 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg2 harg2 arg3 harg3 arg4 harg4 arg5 harg5 arg6 harg6 arg7 harg7 arg8 harg8) K } := by
  refine ⟨?_, fun xi5 E K => ?run⟩
  case run =>
    simp only [cc0__main_kernel_eq_skeleton]; unfold cc0__main_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- Partition 1: the accumulator, found at what the point before left, has the partition's term added; the output
    block is handed back untouched. -/
noncomputable def runMid (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : ¬condLast i)
    (x0 : Vec F S128x4096 .f32) (x1 : Vec F S384x128 .f32) (x2 : Vec F S384x1 .f32) (x3 : Vec F S1x4096x512 .f32) (x4 : Vec F S16x1x128x512 .f32) (xs : Vec F S128x512 .f32) :
    { LS : List (View.Piece (Elt F) S128x512 .f32) //
      ∀ (xi5 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg2 harg2 arg3 harg3 arg4 harg4 arg5 harg5 arg6 harg6 arg7 harg7 arg8 harg8) K } := by
  refine ⟨?_, fun xi5 E K => ?run⟩
  case run =>
    simp only [cc0__main_kernel_eq_skeleton]; unfold cc0__main_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- Partition 2: the accumulator has the partition's term added, and the output block, found at anything, is stored
    the accumulator plus the residual columns clamped below at zero. -/
noncomputable def runLast (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) :
    Σ' (LO : List (View.Piece (Elt F) S128x512 .f32)), { LS : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg2 harg2 arg3 harg3 arg4 harg4 arg5 harg5 arg6 harg6 arg7 harg7 arg8 harg8) K } := by
  refine ⟨?_, ?_, fun E K => ?run⟩
  case run =>
    simp only [cc0__main_kernel_eq_skeleton]; unfold cc0__main_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Body

end
-- ==== Proof.KIFrame.lean ====
/-
  The frame of the fused kernel's program, and what its result array holds. The accumulator is tracked point by
  point: after the point at position n it holds what the case selected by n modulo 3 leaves, computed from the
  point's input blocks and (away from partition 0) from what the point before left. The output block is stored
  only at partition 2, where it is written back; elsewhere it is idle. With these proof data the body's three
  runs discharge the per-point obligation, and the launch theorem gives the run of the whole program.
-/
import proofs.«122202_j86242943304449_2_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The accumulator after a point of partition 0: the stored rectangles read back. -/
def accFirst (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : condZero i) (hc1 : ¬condLast i)
    (x0 : Vec F S128x4096 .f32) (x1 : Vec F S384x128 .f32) (x2 : Vec F S384x1 .f32) (x3 : Vec F S1x4096x512 .f32) (x4 : Vec F S16x1x128x512 .f32) : Vec F S128x512 .f32 :=
  VAcc.read (Elt F) (VAcc.writes (Elt F) VAcc.junk (runFirst c i arg2 harg2 arg3 harg3 arg4 harg4 arg5 harg5 arg6 harg6 arg7 harg7 arg8 harg8 hc0 hc1 x0 x1 x2 x3 x4).1)
/-- Those rectangles cover the accumulator. -/
theorem coverFirst (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : condZero i) (hc1 : ¬condLast i)
    (x0 : Vec F S128x4096 .f32) (x1 : Vec F S384x128 .f32) (x2 : Vec F S384x1 .f32) (x3 : Vec F S1x4096x512 .f32) (x4 : Vec F S16x1x128x512 .f32) (y : S128x512.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S128x512.size (by sl_kernel_rfl) y

/-- The accumulator after a point of partition 1. -/
def accMid (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : ¬condLast i)
    (x0 : Vec F S128x4096 .f32) (x1 : Vec F S384x128 .f32) (x2 : Vec F S384x1 .f32) (x3 : Vec F S1x4096x512 .f32) (x4 : Vec F S16x1x128x512 .f32) (xs : Vec F S128x512 .f32) : Vec F S128x512 .f32 :=
  VAcc.read (Elt F) (VAcc.writes (Elt F) VAcc.junk (runMid c i arg2 harg2 arg3 harg3 arg4 harg4 arg5 harg5 arg6 harg6 arg7 harg7 arg8 harg8 hc0 hc1 x0 x1 x2 x3 x4 xs).1)
theorem coverMid (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : ¬condLast i)
    (x0 : Vec F S128x4096 .f32) (x1 : Vec F S384x128 .f32) (x2 : Vec F S384x1 .f32) (x3 : Vec F S1x4096x512 .f32) (x4 : Vec F S16x1x128x512 .f32) (xs : Vec F S128x512 .f32) (y : S128x512.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S128x512.size (by sl_kernel_rfl) y

/-- The accumulator after a point of partition 2, -/
def accLast (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) : Vec F S128x512 .f32 :=
  VAcc.read (Elt F) (VAcc.writes (Elt F) VAcc.junk (runLast c i arg2 harg2 arg3 harg3 arg4 harg4 arg5 harg5 arg6 harg6 arg7 harg7 arg8 harg8 hc0 hc1 x0 x1 x2 x3 x4 xs).2.1)
theorem coverLastAcc (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) (y : S128x512.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S128x512.size (by sl_kernel_rfl) y
/-- and the output block there. -/
def outLast (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) : Vec F S128x512 .f32 :=
  VOut.read (Elt F) (VOut.writes (Elt F) VOut.junk (runLast c i arg2 harg2 arg3 harg3 arg4 harg4 arg5 harg5 arg6 harg6 arg7 harg7 arg8 harg8 hc0 hc1 x0 x1 x2 x3 x4 xs).1)
theorem coverLastOut (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) (y : S128x512.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S128x512.size (by sl_kernel_rfl) y

/-- A stand-in for the output block at the points that do not store it: nothing reads it. -/
def outIdle : Vec F S128x512 .f32 := VOut.read (Elt F) VOut.junk

/-- The sixteen stacked frames of the point's partition and column tile, as the whole staging buffer holds them
    (the block is never cut, so nothing of the filler shows). -/
def framesAt (c : Dev nD) (t : Fin cfg0.N) : Vec F S16x1x128x512 .f32 :=
  (cfg0.win 4).fill (grid0.coords t) (fun _ => Scalar.ofBits .f32 0#32) (iblk m c 4 t)

/-! ## The accumulation, point by point -/

/-- What the output block and the accumulator hold after the point at position `n`. -/
def outsAt (c : Dev nD) : (n : ℕ) → n < cfg0.N → Vec F S128x512 .f32 × Vec F S128x512 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondZero ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩) (iblk m c 3 ⟨0, hn⟩) (framesAt m c ⟨0, hn⟩))
  | n + 1, hn =>
    if h0 : (n + 1) % 3 = 0 then
      (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondZero ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩) (framesAt m c ⟨n + 1, hn⟩))
    else if h1 : (n + 1) % 3 = 2 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZero ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (framesAt m c ⟨n + 1, hn⟩) (outsAt c n (Nat.lt_of_succ_lt hn)).2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZero ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (framesAt m c ⟨n + 1, hn⟩) (outsAt c n (Nat.lt_of_succ_lt hn)).2)
    else
      (outIdle, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZero ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (framesAt m c ⟨n + 1, hn⟩) (outsAt c n (Nat.lt_of_succ_lt hn)).2)

theorem outsAt_first (c : Dev nD) (t : Fin cfg0.N) (h0 : t.val % 3 = 0) :
    outsAt m c t.val t.isLt = (outIdle, accFirst c (grid0.coords t) (ms0 t) (hs0 t) (ms1 t) (hs1 t) (ms2 t) (hs2 t) (ms3 t) (hs3 t) (ms4 t) (hs4 t) (ms5 t) (hs5 t) accM (Memref.isWhole_whole _) ((hcondZero t).mpr h0) (fun h => absurd ((hcondLast t).mp h) (by omega)) (iblk m c 0 t) (iblk m c 1 t) (iblk m c 2 t) (iblk m c 3 t) (framesAt m c t)) := by
  obtain ⟨n, hn⟩ := t
  cases n with
  | zero => exact rfl
  | succ n => exact (dif_pos h0).trans rfl

theorem outsAt_last (c : Dev nD) (t : Fin cfg0.N) (h0 : ¬t.val % 3 = 0) (h1 : t.val % 3 = 2) :
    outsAt m c t.val t.isLt = (outLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondZero t).mp h)) ((hcondLast t).mpr h1) (iblk m c 0 t) (iblk m c 1 t) (iblk m c 2 t) (iblk m c 3 t) (framesAt m c t) (outsAt m c (t.val - 1) (Nat.lt_of_le_of_lt (Nat.sub_le _ _) t.isLt)).2,
       accLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondZero t).mp h)) ((hcondLast t).mpr h1) (iblk m c 0 t) (iblk m c 1 t) (iblk m c 2 t) (iblk m c 3 t) (framesAt m c t) (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt_mid (c : Dev nD) (t : Fin cfg0.N) (h0 : ¬t.val % 3 = 0) (h1 : ¬t.val % 3 = 2) :
    outsAt m c t.val t.isLt = (outIdle, accMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondZero t).mp h)) (fun h => h1 ((hcondLast t).mp h)) (iblk m c 0 t) (iblk m c 1 t) (iblk m c 2 t) (iblk m c 3 t) (framesAt m c t) (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- The region's invariant before position `n`: before the first point the accumulator holds anything; afterwards
    what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => framesAt m c t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = framesAt m c t := by dsimp only [dats]
theorem after_5 (c : Dev nD) (t : Fin cfg0.N) : (dats m 0 c).after 5 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- The stacked-frames window is fetched at every point and never cut: its buffer holds the block, whatever it
    held before. -/
theorem before_4 (c : Dev nD) (t : Fin cfg0.N) (d) : (dats m 0 c).before 4 t d = framesAt m c t := by
  rw [(dats m 0 c).before_fetched 4 t (fetch0_4 t) d]
  unfold Dat.fetched Dat.blockOf framesAt iblk
  rw [A_eq m c 4]
  exact Pipeline.fill_of_clip_none 4 _ (clipFrames t) _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (framesAt m c t) := by
  unfold Dat.leavesExact; rw [show cfg0.idle 4 (cfg0.grid.coords t) = false from rfl, after_4]

set_option maxHeartbeats 4800000 in
/-- The body at any point: the inputs' buffers hold their blocks; the position modulo 3 says which case the point is
    in; that case's run applies, handing the accumulator over at what the point before left (anything at the first
    point) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 24 := lt_of_lt_of_eq t.isLt (show cfg0.N = 24 from N_0)
  by_cases h0 : t.val % 3 = 0
  · have hc0 : condZero (grid0.coords t) := (hcondZero t).mpr h0
    have hc1 : ¬condLast (grid0.coords t) := fun h => absurd ((hcondLast t).mp h) (by omega)
    rw [Dat.leavesExact_idle (dats m 0 c) 5 t (idleOut t hc1) (noFlushOut t hc1)]
    rw [outsAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ hc0 hc1 (iblk m c 0 t) (iblk m c 1 t) (iblk m c 2 t) (iblk m c 3 t) (framesAt m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ hc0 hc1 (iblk m c 0 t) (iblk m c 1 t) (iblk m c 2 t) (iblk m c 3 t) (framesAt m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬condZero (grid0.coords t) := fun h => h0 ((hcondZero t).mp h)
    have hz : t.val ≠ 0 := fun h => h0 (by rw [h])
    by_cases h1 : t.val % 3 = 2
    · have hc1 : condLast (grid0.coords t) := (hcondLast t).mpr h1
      rw [show (dats m 0 c).leavesExact 5 t = owns (c : Thread nD τ) (ms5 t) fullShare ((dats m 0 c).after 5 t) from by
        unfold Dat.leavesExact; rw [liveOut t hc1], after_5]
      rw [outsAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ hc0 hc1 (iblk m c 0 t) (iblk m c 1 t) (iblk m c 2 t) (iblk m c 3 t) (framesAt m c t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastOut c _ _ _ _ _ _ _ _ _ _ _ _ _ _ _ _ _ _ _ _ _ _ _)
    · have hc1 : ¬condLast (grid0.coords t) := fun h => h1 ((hcondLast t).mp h)
      rw [Dat.leavesExact_idle (dats m 0 c) 5 t (idleOut t hc1) (noFlushOut t hc1)]
      rw [outsAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ hc0 hc1 (iblk m c 0 t) (iblk m c 1 t) (iblk m c 2 t) (iblk m c 3 t) (framesAt m c t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 24 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates without a fault; the result array ends at what the proof
    data compute from the write-backs, and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KIPieces.lean ====
/-
  What the three runs leave, as values. At every point the accumulator ends at one pure function of the point's
  input blocks and of what the accumulator held: the partition's 128 weight rows and bias rows are cut out of the
  resident weight and bias blocks at row offset 128·(partition), and the payload adds the partition's product and
  its stacked frames' sum to the accumulator. At partition 0 the accumulator it adds to is the zero block just
  stored; at partition 2 the output block is the clamp of the new accumulator plus the residual columns, which are
  cut out of the resident feature block at column offset 512·(column tile).
-/
import proofs.«122202_j86242943304449_2_alg».proof.Proof.KIFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The accumulator after one point's update, from the point's input blocks and the accumulator before. -/
def stepVal (i : grid0.Coords) (x0 : Vec F S128x4096 .f32) (x1 : Vec F S384x128 .f32) (x2 : Vec F S384x1 .f32) (x3 : Vec F S1x4096x512 .f32) (x4 : Vec F S16x1x128x512 .f32) (acc : Vec F S128x512 .f32) : Vec F S128x512 .f32 :=
  k0_pay3 (View.ld x1 (Rect.unit (s := S384x128) (k0_off1 i) S128x128.size (k0_off1_inb i)))
    (View.ld x2 (Rect.unit (s := S384x1) (k0_off2 i) S128x1.size (k0_off2_inb i))) x0 x3 x4 acc

/-- The output block stored at partition 2, from the resident feature block and the new accumulator. -/
def outVal (i : grid0.Coords) (hc1 : condLast i) (x0 : Vec F S128x4096 .f32) (acc : Vec F S128x512 .f32) : Vec F S128x512 .f32 :=
  k0_pay1 (View.ld x0 (Rect.unit (s := S128x4096) (k0_off3 i) S128x512.size (k0_off3_inb i hc1))) acc

theorem accMid_eq (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : ¬condLast i)
    (x0 : Vec F S128x4096 .f32) (x1 : Vec F S384x128 .f32) (x2 : Vec F S384x1 .f32) (x3 : Vec F S1x4096x512 .f32) (x4 : Vec F S16x1x128x512 .f32) (xs : Vec F S128x512 .f32) :
    accMid c i arg2 harg2 arg3 harg3 arg4 harg4 arg5 harg5 arg6 harg6 arg7 harg7 arg8 harg8 hc0 hc1 x0 x1 x2 x3 x4 xs = stepVal i x0 x1 x2 x3 x4 xs := by
  unfold accMid
  rw [View.read_writes_eq_canon _ _ _ (coverMid c i arg2 harg2 arg3 harg3 arg4 harg4 arg5 harg5 arg6 harg6 arg7 harg7 arg8 harg8 hc0 hc1 x0 x1 x2 x3 x4 xs)]
  unfold runMid
  dsimp only
  rw [View.canon_unit_zero zeros2]
  simp only [View.readAt_eq_ld, harg2.read_unread, harg3.read_unread, harg4.read_unread, harg5.read_unread, harg6.read_unread, harg8.read_unread,
    View.ld_unit_zero (S := S128x4096) zeros2, View.ld_unit_zero (S := S128x512) zeros2, View.ld_unit_zero (S := S1x4096x512) zeros3, View.ld_unit_zero (S := S16x1x128x512) zeros4]
  rfl

theorem accLast_eq (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) :
    accLast c i arg2 harg2 arg3 harg3 arg4 harg4 arg5 harg5 arg6 harg6 arg7 harg7 arg8 harg8 hc0 hc1 x0 x1 x2 x3 x4 xs = stepVal i x0 x1 x2 x3 x4 xs := by
  unfold accLast
  rw [View.read_writes_eq_canon _ _ _ (coverLastAcc c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero zeros2]
  simp only [View.readAt_eq_ld, harg2.read_unread, harg3.read_unread, harg4.read_unread, harg5.read_unread, harg6.read_unread, harg8.read_unread,
    View.ld_unit_zero (S := S128x4096) zeros2, View.ld_unit_zero (S := S128x512) zeros2, View.ld_unit_zero (S := S1x4096x512) zeros3, View.ld_unit_zero (S := S16x1x128x512) zeros4]
  rfl

theorem accFirst_eq (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : condZero i) (hc1 : ¬condLast i)
    (x0 : Vec F S128x4096 .f32) (x1 : Vec F S384x128 .f32) (x2 : Vec F S384x1 .f32) (x3 : Vec F S1x4096x512 .f32) (x4 : Vec F S16x1x128x512 .f32) :
    accFirst c i arg2 harg2 arg3 harg3 arg4 harg4 arg5 harg5 arg6 harg6 arg7 harg7 arg8 harg8 hc0 hc1 x0 x1 x2 x3 x4 = stepVal i x0 x1 x2 x3 x4 (k0_pay2 (F := F)) := by
  unfold accFirst
  rw [View.read_writes_eq_canon _ _ _ (coverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S128x512) zeros2, View.readCov_unit_zero (S := S128x512) _ zeros2]
  simp only [View.readAt_eq_ld, harg2.read_unread, harg3.read_unread, harg4.read_unread, harg5.read_unread, harg6.read_unread, harg8.read_unread,
    View.ld_unit_zero (S := S128x4096) zeros2, View.ld_unit_zero (S := S128x512) zeros2, View.ld_unit_zero (S := S1x4096x512) zeros3, View.ld_unit_zero (S := S16x1x128x512) zeros4]
  rfl

theorem outLast_eq (c : Dev nD) (i : grid0.Coords) (arg2 : Memref sig .tc .vmem S128x4096 .f32) (harg2 : arg2.IsWhole) (arg3 : Memref sig .tc .vmem S384x128 .f32) (harg3 : arg3.IsWhole) (arg4 : Memref sig .tc .vmem S384x1 .f32) (harg4 : arg4.IsWhole) (arg5 : Memref sig .tc .vmem S1x4096x512 .f32) (harg5 : arg5.IsWhole) (arg6 : Memref sig .tc .vmem S16x1x128x512 .f32) (harg6 : arg6.IsWhole) (arg7 : Memref sig .tc .vmem S128x512 .f32) (harg7 : arg7.IsWhole) (arg8 : Memref sig .tc .vmem S128x512 .f32) (harg8 : arg8.IsWhole) (hc0 : ¬condZero i) (hc1 : condLast i)
    (x0 : Vec F S128x4096 .f32) (x1 : Vec F S384x128 .f32) (x2 : Vec F S384x1 .f32) (x3 : Vec F S1x4096x512 .f32) (x4 : Vec F S16x1x128x512 .f32) (xs : Vec F S128x512 .f32) :
    outLast c i arg2 harg2 arg3 harg3 arg4 harg4 arg5 harg5 arg6 harg6 arg7 harg7 arg8 harg8 hc0 hc1 x0 x1 x2 x3 x4 xs = outVal i hc1 x0 (stepVal i x0 x1 x2 x3 x4 xs) := by
  unfold outLast
  rw [View.read_writes_eq_canon _ _ _ (coverLastOut c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero zeros2, View.readCov_unit_zero (S := S128x512) _ zeros2]
  simp only [View.readAt_eq_ld, harg2.read_unread, harg3.read_unread, harg4.read_unread, harg5.read_unread, harg6.read_unread, harg8.read_unread,
    View.ld_unit_zero (S := S128x4096) zeros2, View.ld_unit_zero (S := S128x512) zeros2, View.ld_unit_zero (S := S1x4096x512) zeros3, View.ld_unit_zero (S := S16x1x128x512) zeros4]
  rfl

end Cert.KernelIdeal.Body

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.KIStep.lean ====
/-
  One point's update of the accumulator and the output block, read at an entry over the extended reals. With the
  partition's 128 weight rows and bias rows cut out at row offset `r c`, the update adds to the accumulator at
  (c, l) the product  Σ_v ((Σ_k W[r c, k] · x[k, v]) + b[r c]) · A[v, l]  of the convolution with the adjacency block,
  plus the sum over the sixteen stacked frames at (c, l). The formats' changes are identities, the two matrix products
  into a zero accumulator are plain sums over the contracted coordinate, and the reduction over the frame axis from
  the zero word is the plain sum over the frames. The output block at (c, l) is the larger of zero and the new
  accumulator plus the feature at (c, column offset + l).
-/
import proofs.«122202_j86242943304449_2_alg».proof.Proof.KIPieces
import proofs.«122202_j86242943304449_2_alg».proof.Proof.LibGram
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx

/-- The operand entries the product's dimension numbers pair with output entry (r, q) and contraction coordinate k:
    (r, k) on the left, (k, q) on the right. -/
theorem convDot_lhs0 (j : S128x4096.Idx) (q : dot_S128x128_S128x4096_S128x4096_1_0_0_1_n_n.contr.Idx) : (dot_S128x128_S128x4096_S128x4096_1_0_0_1_n_n.lhsIdx j q 0).val = (j 0).val := by
  unfold DotDims.lhsIdx
  rw [dif_neg (show ¬(0 : Fin S128x128.rank) ∈ dot_S128x128_S128x4096_S128x4096_1_0_0_1_n_n.lhsBatch by decide), dif_pos (show (0 : Fin S128x128.rank) ∈ dot_S128x128_S128x4096_S128x4096_1_0_0_1_n_n.lhsNonContracting by decide)]
  rfl
theorem convDot_rhs1 (j : S128x4096.Idx) (q : dot_S128x128_S128x4096_S128x4096_1_0_0_1_n_n.contr.Idx) : (dot_S128x128_S128x4096_S128x4096_1_0_0_1_n_n.rhsIdx j q 1).val = (j 1).val := by
  unfold DotDims.rhsIdx
  rw [dif_neg (show ¬(1 : Fin S128x4096.rank) ∈ dot_S128x128_S128x4096_S128x4096_1_0_0_1_n_n.rhsBatch by decide), dif_pos (show (1 : Fin S128x4096.rank) ∈ dot_S128x128_S128x4096_S128x4096_1_0_0_1_n_n.rhsNonContracting by decide)]
  rfl
theorem convDot_lhs (j : S128x4096.Idx) (k : Fin 128) :
    dot_S128x128_S128x4096_S128x4096_1_0_0_1_n_n.lhsIdx j ((contrEquiv1 dot_S128x128_S128x4096_S128x4096_1_0_0_1_n_n 128 rfl rfl).symm k) = ix2 (j 0) k := funext fun a => Fin.ext (by
  match a with
  | ⟨0, _⟩ => exact convDot_lhs0 j _
  | ⟨1, _⟩ => exact (dot_S128x128_S128x4096_S128x4096_1_0_0_1_n_n.lhsIdx_val_of_single rfl j _).trans (contrEquiv1_symm_val dot_S128x128_S128x4096_S128x4096_1_0_0_1_n_n 128 rfl rfl k))
theorem convDot_rhs (j : S128x4096.Idx) (k : Fin 128) :
    dot_S128x128_S128x4096_S128x4096_1_0_0_1_n_n.rhsIdx j ((contrEquiv1 dot_S128x128_S128x4096_S128x4096_1_0_0_1_n_n 128 rfl rfl).symm k) = ix2 k (j 1) := funext fun a => Fin.ext (by
  match a with
  | ⟨0, _⟩ => exact (dot_S128x128_S128x4096_S128x4096_1_0_0_1_n_n.rhsIdx_val_of_single rfl j _).trans (contrEquiv1_symm_val dot_S128x128_S128x4096_S128x4096_1_0_0_1_n_n 128 rfl rfl k)
  | ⟨1, _⟩ => exact convDot_rhs1 j _)

/-- The operand entries the product's dimension numbers pair with output entry (r, q) and contraction coordinate k:
    (r, k) on the left, (k, q) on the right. -/
theorem adjDot_lhs0 (j : S128x512.Idx) (q : dot_S128x4096_S4096x512_S128x512_1_0_0_1_n_n.contr.Idx) : (dot_S128x4096_S4096x512_S128x512_1_0_0_1_n_n.lhsIdx j q 0).val = (j 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl
theorem adjDot_rhs1 (j : S128x512.Idx) (q : dot_S128x4096_S4096x512_S128x512_1_0_0_1_n_n.contr.Idx) : (dot_S128x4096_S4096x512_S128x512_1_0_0_1_n_n.rhsIdx j q 1).val = (j 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl
theorem adjDot_lhs (j : S128x512.Idx) (k : Fin 4096) :
    dot_S128x4096_S4096x512_S128x512_1_0_0_1_n_n.lhsIdx j ((contrEquiv1 dot_S128x4096_S4096x512_S128x512_1_0_0_1_n_n 4096 rfl rfl).symm k) = ix2 (j 0) k := funext fun a => Fin.ext (by
  match a with
  | ⟨0, _⟩ => exact adjDot_lhs0 j _
  | ⟨1, _⟩ => exact (dot_S128x4096_S4096x512_S128x512_1_0_0_1_n_n.lhsIdx_val_of_single rfl j _).trans (contrEquiv1_symm_val dot_S128x4096_S4096x512_S128x512_1_0_0_1_n_n 4096 rfl rfl k))
theorem adjDot_rhs (j : S128x512.Idx) (k : Fin 4096) :
    dot_S128x4096_S4096x512_S128x512_1_0_0_1_n_n.rhsIdx j ((contrEquiv1 dot_S128x4096_S4096x512_S128x512_1_0_0_1_n_n 4096 rfl rfl).symm k) = ix2 k (j 1) := funext fun a => Fin.ext (by
  match a with
  | ⟨0, _⟩ => exact (dot_S128x4096_S4096x512_S128x512_1_0_0_1_n_n.rhsIdx_val_of_single rfl j _).trans (contrEquiv1_symm_val dot_S128x4096_S4096x512_S128x512_1_0_0_1_n_n 4096 rfl rfl k)
  | ⟨1, _⟩ => exact adjDot_rhs1 j _)

/-- The convolution block at (c, v): the weight rows times the features, plus the bias column spread along v. -/
theorem convBlock_apply (v6 : Vec Ideal S128x128 .f32) (v9 : Vec Ideal S128x1 .f32) (v11 : Vec Ideal S128x4096 .f32)
    (c : Fin 128) (v : Fin 4096) :
    (addf (matmul dot_S128x128_S128x4096_S128x4096_1_0_0_1_n_n none (truncf .bf16 v6 bitsLt_bf16_f32)
        (truncf .bf16 (shapeCast S128x4096 v11 shapeCasts_S128x4096_S128x4096) bitsLt_bf16_f32) (constant S128x4096 .f32 0x00000000#32))
      (broadcastTo S128x4096 (shapeCast S128x1 v9 shapeCasts_S128x1_S128x1) broadcasts_S128x1_S128x4096) : FVec Ideal S128x4096 .f32) (ix2 c v)
      = (∑ k : Fin 128, v6 (ix2 c k) * v11 (ix2 k v)) + v9 (ix2 c (0 : Fin 1)) := by
  show matmul (F := Ideal) dot_S128x128_S128x4096_S128x4096_1_0_0_1_n_n none _ _ _ (ix2 c v) + broadcastTo S128x4096 _ broadcasts_S128x1_S128x4096 (ix2 c v) = _
  congr 1
  · refine (Cert.Lib.Gram.matmul_zero_single_apply dot_S128x128_S128x4096_S128x4096_1_0_0_1_n_n 128 rfl rfl none _ _ (ix2 c v)
      (fun k => ix2 c k) (fun k => ix2 k v) (fun k => convDot_lhs (ix2 c v) k) (fun k => convDot_rhs (ix2 c v) k)).trans ?_
    refine Finset.sum_congr rfl fun k _ => ?_
    show v6 (ix2 c k) * shapeCast S128x4096 v11 shapeCasts_S128x4096_S128x4096 (ix2 k v) = _
    rw [shapeCast_self]
  · refine (broadcastTo_apply _ broadcasts_S128x1_S128x4096 (ix2 c v) (ix2 c (0 : Fin 1)) (fun a => by
      match a with
      | ⟨0, _⟩ => show c.val = if (128 : Nat) = 1 then 0 else c.val; rw [if_neg (by decide)]
      | ⟨1, _⟩ => show 0 = if (1 : Nat) = 1 then 0 else v.val; rw [if_pos rfl])).trans ?_
    rw [shapeCast_self]

/-- The adjacency block without its unit axis, at (v, l). -/
theorem adjBlock_apply (v18 : Vec Ideal S1x4096x512 .f32) (v : Fin 4096) (l : Fin 512) :
    shapeCast S4096x512 v18 shapeCasts_S1x4096x512_S4096x512 (ix2 v l) = v18 (ix3 (0 : Fin 1) v l) :=
  shapeCast_apply v18 _ (ix2 v l) (ix3 (0 : Fin 1) v l) (by
    rw [Shape.rowMajor_val_three, Shape.rowMajor_val_two]
    show (0 * 4096 + v.val) * 512 + l.val = v.val * 512 + l.val
    omega)

/-- The stacked frames without their unit axis, at (f, c, l). -/
theorem frameBlock_apply (v22 : Vec Ideal S16x1x128x512 .f32) (f : Fin 16) (c : Fin 128) (l : Fin 512) :
    shapeCast S16x128x512 v22 shapeCasts_S16x1x128x512_S16x128x512 (ix3 f c l) = v22 (ix4 f (0 : Fin 1) c l) :=
  shapeCast_apply v22 _ (ix3 f c l) (ix4 f (0 : Fin 1) c l) (by
    rw [Shape.rowMajor_val_four, Shape.rowMajor_val_three]
    show ((f.val * 1 + 0) * 128 + c.val) * 512 + l.val = (f.val * 128 + c.val) * 512 + l.val
    omega)

/-- The frame axis's sum at (c, l). -/
theorem frameSum_apply (w : FVec Ideal S16x128x512 .f32) (c : Fin 128) (l : Fin 512) :
    (multiReduction (F := Ideal) .add [0] S128x512 w 0x00000000#32 reduces_S16x128x512_S128x512 (.inl rfl) rfl) (ix2 c l)
      = ∑ f : Fin 16, w (ix3 f c l) := by
  refine (Ideal.multiReduction_add_single w _ reduces_S16x128x512_S128x512 (.inl rfl) rfl (ix2 c l)).trans ?_
  refine Finset.sum_congr rfl fun f _ => congrArg w (funext fun a => Fin.ext ?_)
  match a with
  | ⟨0, _⟩ => rfl
  | ⟨1, _⟩ => rfl
  | ⟨2, _⟩ => rfl

/-- THE UPDATE at (c, l), the partition's rows at `r`. -/
theorem stepVal_apply (i : grid0.Coords) (x0 : Vec Ideal S128x4096 .f32) (x1 : Vec Ideal S384x128 .f32)
    (x2 : Vec Ideal S384x1 .f32) (x3 : Vec Ideal S1x4096x512 .f32) (x4 : Vec Ideal S16x1x128x512 .f32)
    (acc : Vec Ideal S128x512 .f32) (r : Fin 128 → Fin 384)
    (h1 : ∀ c : Fin 128, k0_off1 i 0 + 1 * c.val = (r c).val) (h1' : k0_off1 i 1 = 0)
    (h2 : ∀ c : Fin 128, k0_off2 i 0 + 1 * c.val = (r c).val) (h2' : k0_off2 i 1 = 0)
    (c : Fin 128) (l : Fin 512) :
    stepVal (F := Ideal) i x0 x1 x2 x3 x4 acc (ix2 c l)
      = acc (ix2 c l) + ((∑ v : Fin 4096, ((∑ k : Fin 128, x1 (ix2 (r c) k) * x0 (ix2 k v)) + x2 (ix2 (r c) (0 : Fin 1)))
            * x3 (ix3 (0 : Fin 1) v l)) + ∑ f : Fin 16, x4 (ix4 f (0 : Fin 1) c l)) := by
  unfold stepVal k0_pay3
  refine (congrFun (shapeCast_self _ shapeCasts_S128x512_S128x512) (ix2 c l)).trans ?_
  show acc (ix2 c l) + (matmul (F := Ideal) dot_S128x4096_S4096x512_S128x512_1_0_0_1_n_n none _ _ _ (ix2 c l) + multiReduction (F := Ideal) .add [0] S128x512 _ 0x00000000#32 reduces_S16x128x512_S128x512 (.inl rfl) rfl (ix2 c l)) = _
  congr 1
  congr 1
  · refine (Cert.Lib.Gram.matmul_zero_single_apply dot_S128x4096_S4096x512_S128x512_1_0_0_1_n_n 4096 rfl rfl none _ _ (ix2 c l)
      (fun v => ix2 c v) (fun v => ix2 v l) (fun v => adjDot_lhs (ix2 c l) v) (fun v => adjDot_rhs (ix2 c l) v)).trans ?_
    refine Finset.sum_congr rfl fun v _ => ?_
    refine congrArg₂ (· * ·) ((convBlock_apply _ _ x0 c v).trans ?_) (adjBlock_apply x3 v l)
    refine congrArg₂ (· + ·) (Finset.sum_congr rfl fun k _ => congrArg (· * x0 (ix2 k v)) (congrArg x1 (funext fun a => Fin.ext ?_))) (congrArg x2 (funext fun a => Fin.ext ?_))
    · match a with
      | ⟨0, _⟩ => exact h1 c
      | ⟨1, _⟩ => show k0_off1 i 1 + 1 * k.val = k.val; rw [h1']; omega
    · match a with
      | ⟨0, _⟩ => exact h2 c
      | ⟨1, _⟩ => show k0_off2 i 1 + 1 * 0 = 0; rw [h2']
  · refine (frameSum_apply _ c l).trans (Finset.sum_congr rfl fun f _ => frameBlock_apply x4 f c l)

/-- THE OUTPUT BLOCK at (c, l), the residual columns at offset `o`. -/
theorem outVal_apply (i : grid0.Coords) (hc1 : condLast i) (x0 : Vec Ideal S128x4096 .f32) (acc : Vec Ideal S128x512 .f32)
    (col : Fin 512 → Fin 4096) (h3 : k0_off3 i 0 = 0) (h3' : ∀ l : Fin 512, k0_off3 i 1 + 1 * l.val = (col l).val)
    (c : Fin 128) (l : Fin 512) :
    outVal (F := Ideal) i hc1 x0 acc (ix2 c l) = max (acc (ix2 c l) + x0 (ix2 c (col l))) 0 := by
  unfold outVal k0_pay1
  show max (acc (ix2 c l) + shapeCast S128x512 _ shapeCasts_S128x512_S128x512 (ix2 c l)) (Ideal.ofBits .f32 0x00000000#32) = _
  rw [Ideal.ofBits_zero_f32, shapeCast_self]
  refine congrArg (fun z => max (acc (ix2 c l) + z) 0) (congrArg x0 (funext fun a => Fin.ext ?_))
  match a with
  | ⟨0, _⟩ => show k0_off3 i 0 + 1 * c.val = c.val; rw [h3]; omega
  | ⟨1, _⟩ => exact h3' l

/-- The zero block the accumulator is reset to. -/
theorem zeroBlock_apply (j : S128x512.Idx) : (k0_pay2 (F := Ideal)) j = 0 := by
  unfold k0_pay2
  refine (congrFun (shapeCast_self _ shapeCasts_S128x512_S128x512) j).trans ?_
  show Ideal.ofBits .f32 0x00000000#32 = 0
  exact Ideal.ofBits_zero_f32

end Cert.KernelIdeal.Body

end
-- ==== Proof.Spec.lean ====
/-
  What both programs compute, as one function of the five argument arrays over the extended reals.

  With features x (128 channels by 4096 nodes), three adjacency matrices A_p, a stack of 17 frames per partition,
  384 = 3·128 weight rows W and biases b: for partition p, channel c and node v the 1×1 convolution is
      conv p c v = (Σ_k W[128p + c, k] · x[k, v]) + b[128p + c],
  its product with the partition's adjacency is  prod p c w = Σ_v conv p c v · A_p[v, w],  the frames kept after the
  push are frames 0..15, summed:  frames p c w = Σ_{f < 16} fifo[f, p, c, w],  and the result is
      out c w = max((((0 + term 0) + term 1) + term 2) + x[c, w], 0),   term p = prod p + frames p.
  The reference sums a 17 × 3 table whose first row is the three products and whose other rows are the sixteen kept
  frames; since addition of extended reals is commutative and associative, that double sum is the three terms' sum
  (`table_sum`). No distributivity and no cancellation is used, so no finiteness either.
-/
import Idealize.ShloMosaic.PureOps.Ideal
import Idealize.ShloMosaic.Lib.ValueIdx

noncomputable section

open scoped BigOperators

namespace Cert.Spec

open Idealize.ShloMosaic Idealize.ShloMosaic.ValueIdx

abbrev SFeat : Shape := ⟨4, ![1, 128, 4096, 1]⟩
abbrev SAdj : Shape := ⟨3, ![3, 4096, 4096]⟩
abbrev SFrames : Shape := ⟨4, ![17, 3, 128, 4096]⟩
abbrev SWeight : Shape := ⟨2, ![384, 128]⟩
abbrev SBias : Shape := ⟨1, ![384]⟩
abbrev SOut : Shape := ⟨3, ![1, 128, 4096]⟩

variable (x : SFeat.Idx → EReal) (A : SAdj.Idx → EReal) (fifo : SFrames.Idx → EReal) (W : SWeight.Idx → EReal)
  (b : SBias.Idx → EReal)

/-- Row `128·p + c` of the weights and biases: partition `p`'s channel `c`. -/
def row (p : Fin 3) (c : Fin 128) : Fin 384 := ⟨p.val * 128 + c.val, by have := p.isLt; have := c.isLt; omega⟩

/-- The features at channel `k`, node `v`. -/
def feat (k : Fin 128) (v : Fin 4096) : EReal := x (ix4 (0 : Fin 1) k v (0 : Fin 1))

/-- The 1×1 convolution for partition `p`. -/
def conv (p : Fin 3) (c : Fin 128) (v : Fin 4096) : EReal :=
  (∑ k : Fin 128, W (ix2 (row p c) k) * feat x k v) + b (ix1 (row p c))

/-- Its product with the partition's adjacency matrix. -/
def prod (p : Fin 3) (c : Fin 128) (w : Fin 4096) : EReal := ∑ v : Fin 4096, conv x W b p c v * A (ix3 p v w)

/-- The sixteen frames kept after the push, summed. -/
def frames (p : Fin 3) (c : Fin 128) (w : Fin 4096) : EReal := ∑ f : Fin 16, fifo (ix4 f.castSucc p c w)

/-- One partition's contribution. -/
def term (p : Fin 3) (c : Fin 128) (w : Fin 4096) : EReal := prod x A W b p c w + frames fifo p c w

/-- The result at channel `c`, node `w`. -/
def out (c : Fin 128) (w : Fin 4096) : EReal :=
  max ((((0 + term x A fifo W b 0 c w) + term x A fifo W b 1 c w) + term x A fifo W b 2 c w) + feat x c w) 0

/-- The result array. -/
def G : SOut.Idx → EReal := fun i => out x A fifo W b (i 1) (i 2)

/-- A 17 × 3 table summed over both coordinates is, column by column, the first row's entry plus the other sixteen
    rows' entries. -/
theorem table_sum {M : Type*} [AddCommMonoid M] (N : Fin 17 → Fin 3 → M) :
    ∑ f : Fin 17, ∑ p : Fin 3, N f p
      = ((N 0 0 + ∑ f : Fin 16, N f.succ 0) + (N 0 1 + ∑ f : Fin 16, N f.succ 1)) + (N 0 2 + ∑ f : Fin 16, N f.succ 2) := by
  rw [Finset.sum_comm, Fin.sum_univ_three, Fin.sum_univ_succ (fun f => N f 0), Fin.sum_univ_succ (fun f => N f 1),
    Fin.sum_univ_succ (fun f => N f 2)]

end Cert.Spec

end
-- ==== Proof.KIBlocks.lean ====
/-
  The point's input blocks, read at an entry of the argument arrays. The grid runs the partition innermost, so the
  point at position t has partition t mod 3 and column tile t div 3. The features, weights and biases are resident
  whole; the adjacency block at t is matrix (t mod 3)'s columns 512·(t div 3) .. +511; the frames block is frames
  0..15 of partition t mod 3 at the same columns. With these, one point's update adds that partition's term of the
  specification, at the tile's column, to the accumulator.
-/
import proofs.«122202_j86242943304449_2_alg».proof.Proof.KIStep
import proofs.«122202_j86242943304449_2_alg».proof.Proof.Spec
import Idealize.ShloMosaic.Lib.StableHlo.Run

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The point's partition and column tile. -/
def part (t : Fin cfg0.N) : Fin 3 := ⟨t.val % 3, Nat.mod_lt _ (by decide)⟩
def tile (t : Fin cfg0.N) : Fin 8 := ⟨t.val / 3, by have h := t.isLt; have hN : cfg0.N = 24 := N_0; omega⟩
/-- Column l of tile n. -/
def col (n : Fin 8) (l : Fin 512) : Fin 4096 := ⟨n.val * 512 + l.val, by have := n.isLt; have := l.isLt; omega⟩

/-- The body's three load offsets, decided over the grid. -/
theorem offFacts : ∀ t : Fin cfg0.N, k0_off1 (grid0.coords t) 0 = t.val % 3 * 128 ∧ k0_off1 (grid0.coords t) 1 = 0
    ∧ k0_off2 (grid0.coords t) 0 = t.val % 3 * 128 ∧ k0_off2 (grid0.coords t) 1 = 0
    ∧ k0_off3 (grid0.coords t) 0 = 0 ∧ k0_off3 (grid0.coords t) 1 = t.val / 3 * 512 :=
  (by decide +kernel : ∀ t : Fin grid0.N, _)

/-- The windows' block indices, decided over the grid. -/
theorem idxFacts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val % 3 ∧ win0_3.index t (1 : Fin 3) = 0 ∧ win0_3.index t (2 : Fin 3) = t.val / 3
    ∧ win0_4.index t (0 : Fin 4) = 0 ∧ win0_4.index t (1 : Fin 4) = t.val % 3 ∧ win0_4.index t (2 : Fin 4) = 0 ∧ win0_4.index t (3 : Fin 4) = t.val / 3
    ∧ win0_5.index t (0 : Fin 2) = 0 ∧ win0_5.index t (1 : Fin 2) = t.val / 3 :=
  (by decide +kernel : ∀ t : Fin grid0.N, _)

/-! ## The arrays as the region finds them -/

theorem V_feat (c : Dev nD) : (V m c main_v0 : S128x4096.Idx → EReal)
    = shapeCast S128x4096 (m ((c : Thread nD τ).loc main_arg0)) shapeCasts_S1x128x4096x1_S128x4096 := by
  show StableHlo.after hostOps0 (fun b => m (c, b)) (Proc.devRef .tc main_v0) = _
  after_results
  rfl

theorem V_bias (c : Dev nD) : (V m c main_v1 : S384x1.Idx → EReal)
    = shapeCast S384x1 (m ((c : Thread nD τ).loc main_arg4)) shapeCasts_S384_S384x1 := by
  show StableHlo.after hostOps0 (fun b => m (c, b)) (Proc.devRef .tc main_v1) = _
  after_results
  rfl

/-! ## The blocks at an entry -/

theorem featBlock (c : Dev nD) (t : Fin cfg0.N) (k : Fin 128) (v : Fin 4096) :
    iblk m c 0 t (ix2 k v) = m ((c : Thread nD τ).loc main_arg0) (ix4 (0 : Fin 1) k v (0 : Fin 1)) := by
  obtain ⟨e0, e1, -⟩ := idxFacts t
  show V m c main_v0 (((cfg0.win 0).blk t).view.emb (ix2 k v)) = _
  have he : ((cfg0.win 0).blk t).view.emb (ix2 k v) = ix2 k v := funext fun a => Fin.ext (by
    match a with
    | ⟨0, _⟩ => show win0_0.index t (0 : Fin 2) * 128 + 1 * k.val = k.val; rw [e0]; omega
    | ⟨1, _⟩ => show win0_0.index t (1 : Fin 2) * 4096 + 1 * v.val = v.val; rw [e1]; omega)
  rw [he, V_feat]
  exact shapeCast_apply _ _ (ix2 k v) (ix4 (0 : Fin 1) k v (0 : Fin 1)) (by
    rw [Shape.rowMajor_val_four, Shape.rowMajor_val_two]
    show ((0 * 128 + k.val) * 4096 + v.val) * 1 + 0 = k.val * 4096 + v.val
    omega)

theorem weightBlock (c : Dev nD) (t : Fin cfg0.N) (r : Fin 384) (k : Fin 128) :
    iblk m c 1 t (ix2 r k) = m ((c : Thread nD τ).loc main_arg3) (ix2 r k) := by
  obtain ⟨-, -, e0, e1, -⟩ := idxFacts t
  show V m c main_arg3 (((cfg0.win 1).blk t).view.emb (ix2 r k)) = _
  have he : ((cfg0.win 1).blk t).view.emb (ix2 r k) = ix2 r k := funext fun a => Fin.ext (by
    match a with
    | ⟨0, _⟩ => show win0_1.index t (0 : Fin 2) * 384 + 1 * r.val = r.val; rw [e0]; omega
    | ⟨1, _⟩ => show win0_1.index t (1 : Fin 2) * 128 + 1 * k.val = k.val; rw [e1]; omega)
  rw [he, V_main_arg3]

theorem biasBlock (c : Dev nD) (t : Fin cfg0.N) (r : Fin 384) :
    iblk m c 2 t (ix2 r (0 : Fin 1)) = m ((c : Thread nD τ).loc main_arg4) (ix1 r) := by
  obtain ⟨-, -, -, -, e0, e1, -⟩ := idxFacts t
  show V m c main_v1 (((cfg0.win 2).blk t).view.emb (ix2 r (0 : Fin 1))) = _
  have he : ((cfg0.win 2).blk t).view.emb (ix2 r (0 : Fin 1)) = ix2 r (0 : Fin 1) := funext fun a => Fin.ext (by
    match a with
    | ⟨0, _⟩ => show win0_2.index t (0 : Fin 2) * 384 + 1 * r.val = r.val; rw [e0]; omega
    | ⟨1, _⟩ => show win0_2.index t (1 : Fin 2) * 1 + 1 * 0 = 0; rw [e1])
  rw [he, V_bias]
  exact Cert.Lib.Gram.shapeCast_a_a1_apply _ _ r (0 : Fin 1)

theorem adjBlock (c : Dev nD) (t : Fin cfg0.N) (v : Fin 4096) (l : Fin 512) :
    iblk m c 3 t (ix3 (0 : Fin 1) v l) = m ((c : Thread nD τ).loc main_arg1) (ix3 (part t) v (col (tile t) l)) := by
  obtain ⟨-, -, -, -, -, -, e0, e1, e2, -⟩ := idxFacts t
  show V m c main_arg1 (((cfg0.win 3).blk t).view.emb (ix3 (0 : Fin 1) v l)) = _
  rw [V_main_arg1]
  refine congrArg _ (funext fun a => Fin.ext ?_)
  match a with
  | ⟨0, _⟩ => show win0_3.index t (0 : Fin 3) * 1 + 1 * 0 = t.val % 3; rw [e0]; omega
  | ⟨1, _⟩ => show win0_3.index t (1 : Fin 3) * 4096 + 1 * v.val = v.val; rw [e1]; omega
  | ⟨2, _⟩ => show win0_3.index t (2 : Fin 3) * 512 + 1 * l.val = t.val / 3 * 512 + l.val; rw [e2]; omega

theorem frameBlock (c : Dev nD) (t : Fin cfg0.N) (f : Fin 16) (cc : Fin 128) (l : Fin 512) :
    framesAt m c t (ix4 f (0 : Fin 1) cc l) = m ((c : Thread nD τ).loc main_arg2) (ix4 f.castSucc (part t) cc (col (tile t) l)) := by
  obtain ⟨-, -, -, -, -, -, -, -, -, e0, e1, e2, e3, -⟩ := idxFacts t
  have hm : (cfg0.win 4).moved (grid0.coords t) (ix4 f (0 : Fin 1) cc l) = true :=
    ((cfg0.win 4).moved_iff _ _).mpr fun a => by
      have := (ix4 f (0 : Fin 1) cc l a).isLt; unfold Pipeline.Window.xsize; rw [clipFrames t a]; exact this
  unfold framesAt Pipeline.Window.fill
  rw [dif_pos hm]
  show V m c main_arg2 (((cfg0.win 4).blk t).view.emb _) = _
  rw [V_main_arg2]
  refine congrArg _ (funext fun a => Fin.ext ?_)
  match a with
  | ⟨0, _⟩ => show win0_4.index t (0 : Fin 4) * 16 + 1 * f.val = f.val; rw [e0]; omega
  | ⟨1, _⟩ => show win0_4.index t (1 : Fin 4) * 1 + 1 * 0 = t.val % 3; rw [e1]; omega
  | ⟨2, _⟩ => show win0_4.index t (2 : Fin 4) * 128 + 1 * cc.val = cc.val; rw [e2]; omega
  | ⟨3, _⟩ => show win0_4.index t (3 : Fin 4) * 512 + 1 * l.val = t.val / 3 * 512 + l.val; rw [e3]; omega

/-! ## One point's update is the partition's term -/

abbrev argFeat (c : Dev nD) := m ((c : Thread nD τ).loc main_arg0)
abbrev argAdj (c : Dev nD) := m ((c : Thread nD τ).loc main_arg1)
abbrev argFrames (c : Dev nD) := m ((c : Thread nD τ).loc main_arg2)
abbrev argWeight (c : Dev nD) := m ((c : Thread nD τ).loc main_arg3)
abbrev argBias (c : Dev nD) := m ((c : Thread nD τ).loc main_arg4)

theorem step_eq (c : Dev nD) (t : Fin cfg0.N) (acc : Vec Ideal S128x512 .f32) (cc : Fin 128) (l : Fin 512) :
    stepVal (F := Ideal) (grid0.coords t) (iblk m c 0 t) (iblk m c 1 t) (iblk m c 2 t) (iblk m c 3 t) (framesAt m c t) acc (ix2 cc l)
      = acc (ix2 cc l) + Cert.Spec.term (argFeat m c) (argAdj m c) (argFrames m c) (argWeight m c) (argBias m c) (part t) cc (col (tile t) l) := by
  obtain ⟨o0, o1, o2, o3, -, -⟩ := offFacts t
  rw [stepVal_apply (grid0.coords t) _ _ _ _ _ acc (fun c' => Cert.Spec.row (part t) c')
    (fun c' => by show k0_off1 (grid0.coords t) 0 + 1 * c'.val = t.val % 3 * 128 + c'.val; rw [o0]; omega) o1
    (fun c' => by show k0_off2 (grid0.coords t) 0 + 1 * c'.val = t.val % 3 * 128 + c'.val; rw [o2]; omega) o3 cc l]
  unfold Cert.Spec.term Cert.Spec.prod Cert.Spec.frames Cert.Spec.conv Cert.Spec.feat
  simp only [featBlock, weightBlock, biasBlock, adjBlock, frameBlock]

end Cert.KernelIdeal.Body

end
-- ==== Proof.KIFinal.lean ====
/-
  The kernel's result array. The output block is written back at the points of partition 2, and what is written at
  such a point is the clamp of the accumulator after three consecutive updates — partitions 0, 1, 2 of one column
  tile, from the zero block — plus the residual features at the tile's columns: the specification's value at those
  columns. The eight tiles' blocks cover the 128 × 4096 array, so the array ends at the specification, and the line
  after the region gives it a leading unit axis.
-/
import proofs.«122202_j86242943304449_2_alg».proof.Proof.KIBlocks
import Idealize.ShloMosaic.Lib.Pipeline.Value
import Idealize.ShloMosaic.Lib.StableHlo.Run

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array before its unit axis is added: the specification at (channel, node). -/
def plane (c : Dev nD) : S128x4096.Idx → EReal := fun i =>
  Cert.Spec.out (argFeat m c) (argAdj m c) (argFrames m c) (argWeight m c) (argBias m c) (i 0) (i 1)

/-- The accumulator after the point at position t, entry by entry, for the three partitions. -/
theorem acc_first (c : Dev nD) (t : Fin cfg0.N) (h0 : t.val % 3 = 0) (cc : Fin 128) (l : Fin 512) :
    (outsAt m c t.val t.isLt).2 (ix2 cc l)
      = 0 + Cert.Spec.term (argFeat m c) (argAdj m c) (argFrames m c) (argWeight m c) (argBias m c) (part t) cc (col (tile t) l) := by
  rw [outsAt_first m c t h0]
  dsimp only
  rw [accFirst_eq, step_eq, zeroBlock_apply]

theorem acc_mid (c : Dev nD) (t : Fin cfg0.N) (h0 : ¬t.val % 3 = 0) (h1 : ¬t.val % 3 = 2) (cc : Fin 128) (l : Fin 512) :
    (outsAt m c t.val t.isLt).2 (ix2 cc l)
      = (outsAt m c (t.val - 1) (Nat.lt_of_le_of_lt (Nat.sub_le _ _) t.isLt)).2 (ix2 cc l)
        + Cert.Spec.term (argFeat m c) (argAdj m c) (argFrames m c) (argWeight m c) (argBias m c) (part t) cc (col (tile t) l) := by
  rw [outsAt_mid m c t h0 h1]
  dsimp only
  rw [accMid_eq, step_eq]

/-- The output block stored at a point of partition 2, entry by entry. -/
theorem out_last (c : Dev nD) (t : Fin cfg0.N) (h0 : ¬t.val % 3 = 0) (h1 : t.val % 3 = 2) (cc : Fin 128) (l : Fin 512) :
    (outsAt m c t.val t.isLt).1 (ix2 cc l)
      = max (((outsAt m c (t.val - 1) (Nat.lt_of_le_of_lt (Nat.sub_le _ _) t.isLt)).2 (ix2 cc l)
          + Cert.Spec.term (argFeat m c) (argAdj m c) (argFrames m c) (argWeight m c) (argBias m c) (part t) cc (col (tile t) l))
          + Cert.Spec.feat (argFeat m c) cc (col (tile t) l)) 0 := by
  obtain ⟨-, -, -, -, o4, o5⟩ := offFacts t
  rw [outsAt_last m c t h0 h1]
  dsimp only
  rw [outLast_eq, outVal_apply (grid0.coords t) _ _ _ (col (tile t)) o4
    (fun l' => by show k0_off3 (grid0.coords t) 1 + 1 * l'.val = t.val / 3 * 512 + l'.val; rw [o5]; omega) cc l,
    step_eq, featBlock]
  rfl

/-- WHAT A WRITE-BACK WRITES is its block of the specification. -/
theorem flushed_eq (c : Dev nD) (t : Fin cfg0.N) (hf : (cfg0.win 5).flush t = true) :
    (dats m 0 c).flushed 5 t = ((cfg0.win 5).blk t).view.read (Elt Ideal) (plane m c) := by
  have hN : cfg0.N = 24 := N_0
  have h2 : t.val % 3 = 2 := (flush0_5 t).mp hf
  have hlt := t.isLt
  obtain ⟨-, -, -, -, -, -, -, -, -, -, -, -, -, e0, e1⟩ := idxFacts t
  show (cfg0.win 5).cut (grid0.coords t) ((dats m 0 c).after 5 t) = _
  rw [after_5]
  funext y
  obtain ⟨cc, l, rfl⟩ : ∃ (cc : Fin 128) (l : Fin 512), y = ix2 cc l := ⟨y 0, y 1, eq_ix2 y⟩
  show (outsAt m c t.val t.isLt).1 (ix2 cc l) = plane m c (((cfg0.win 5).blk t).view.emb (ix2 cc l))
  have he : ((cfg0.win 5).blk t).view.emb (ix2 cc l) = ix2 cc (col (tile t) l) := funext fun a => Fin.ext (by
    match a with
    | ⟨0, _⟩ => show win0_5.index t (0 : Fin 2) * 128 + 1 * cc.val = cc.val; rw [e0]; omega
    | ⟨1, _⟩ => show win0_5.index t (1 : Fin 2) * 512 + 1 * l.val = t.val / 3 * 512 + l.val; rw [e1]; omega)
  rw [he, out_last m c t (by omega) h2]
  -- the two points before, of partitions 1 and 0
  let t1 : Fin cfg0.N := ⟨t.val - 1, by omega⟩
  let t0 : Fin cfg0.N := ⟨t.val - 1 - 1, by omega⟩
  have a1 := acc_mid m c t1 (by show ¬(t.val - 1) % 3 = 0; omega) (by show ¬(t.val - 1) % 3 = 2; omega) cc l
  have a0 := acc_first m c t0 (by show (t.val - 1 - 1) % 3 = 0; omega) cc l
  have hp2 : part t = 2 := Fin.ext (by show t.val % 3 = 2; exact h2)
  have hp1 : part t1 = 1 := Fin.ext (by show (t.val - 1) % 3 = 1; omega)
  have hp0 : part t0 = 0 := Fin.ext (by show (t.val - 1 - 1) % 3 = 0; omega)
  have ht1 : tile t1 = tile t := Fin.ext (by show (t.val - 1) / 3 = t.val / 3; omega)
  have ht0 : tile t0 = tile t := Fin.ext (by show (t.val - 1 - 1) / 3 = t.val / 3; omega)
  rw [hp1, ht1] at a1
  rw [hp0, ht0] at a0
  rw [hp2]
  show max (((outsAt m c t1.val t1.isLt).2 (ix2 cc l) + _) + _) 0 = _
  rw [a1]
  show max ((((outsAt m c t0.val t0.isLt).2 (ix2 cc l) + _) + _) + _) 0 = _
  rw [a0]
  rfl

/-- An entry of the array is in the block of point t iff its coordinates are in the block's ranges. -/
theorem mem_outBlock (t : Fin cfg0.N) (i : S128x4096.Idx) :
    i ∈ ((cfg0.win 5).blk t).view.set ↔ ∀ a : Fin 2, win0_5.index t a * S128x512.size a ≤ (i a).val ∧ (i a).val < win0_5.index t a * S128x512.size a + S128x512.size a := by
  show i ∈ ((View.whole main_v2).slice (win0_5.rect t)).set ↔ _
  rw [View.set_slice_whole, Rect.mem_set_unit]
  exact Iff.rfl

/-- THE RESULT ARRAY ends at the specification: the tile that holds a column is written back at its last point. -/
theorem final (c : Dev nD) : (dats m 0 c).arrAt 5 cfg0.N = plane m c :=
  (dats m 0 c).arrAt_eq_of_cover 5 (plane m c) (flushed_eq m c) fun i => by
    have hN : cfg0.N = 24 := N_0
    have hi0 : (i 0).val < 128 := (i 0).isLt
    have hi1 : (i 1).val < 4096 := (i 1).isLt
    let t : Fin cfg0.N := ⟨3 * ((i 1).val / 512) + 2, by omega⟩
    obtain ⟨-, -, -, -, -, -, -, -, -, -, -, -, -, e0, e1⟩ := idxFacts t
    have e1' : win0_5.index t (1 : Fin 2) = (i 1).val / 512 := by rw [e1]; show (3 * ((i 1).val / 512) + 2) / 3 = _; omega
    refine ⟨t, (flush0_5 t).mpr (by show (3 * ((i 1).val / 512) + 2) % 3 = 2; omega), ?_⟩
    rw [mem_outBlock]
    intro a
    match a with
    | ⟨0, _⟩ => show win0_5.index t (0 : Fin 2) * 128 ≤ (i 0).val ∧ (i 0).val < win0_5.index t (0 : Fin 2) * 128 + 128; rw [e0]; omega
    | ⟨1, _⟩ => show win0_5.index t (1 : Fin 2) * 512 ≤ (i 1).val ∧ (i 1).val < win0_5.index t (1 : Fin 2) * 512 + 512; rw [e1']; omega

/-- The program's result: the specification's array. -/
theorem tail_eq (c : Dev nD) :
    Pipeline.afterTail₀ cfgs (dats m) 0 (V0 m) [hostOps1] c main_v3
      = Cert.Spec.G (argFeat m c) (argAdj m c) (argFrames m c) (argWeight m c) (argBias m c) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2) = (dats m 0 c).arrAt 5 cfg0.N from
    Pipeline.withArrays_arr spec0 launch0.win.arr_inj c _ _ 5, final]
  funext i
  refine (broadcastInDim_apply _ bcast_S128x4096_S1x128x4096_1_2 (plane m c) i (ix2 (i 1) (i 2)) (fun a => by
    match a with
    | ⟨0, _⟩ => show (i 1).val = if (128 : Nat) = 1 then 0 else (i 1).val; rw [if_neg (by decide)]
    | ⟨1, _⟩ => show (i 2).val = if (4096 : Nat) = 1 then 0 else (i 2).val; rw [if_neg (by decide)])).trans ?_
  rfl

/-- The run, read: the result at the specification, the five arguments unchanged. -/
theorem run : θ_run defs (onTc (τ := τ) (main (F := Ideal))) ⟨m, fun _ => 0, ρ⟩ fun r => ∀ c : Dev nD,
      r.2.mem ((c.tc : Thread nD τ).loc main_v3) = Cert.Spec.G (argFeat m c) (argAdj m c) (argFrames m c) (argWeight m c) (argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_eq m c),
      (((h c).2 main_arg0 (Pipeline.mem_restRefs_of main_arg0 (by decide) (by decide))).trans (W_main_arg0 m (dats m) c)),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c))⟩)
    (run_main m ρ)

end Cert.KernelIdeal.Body

end
-- ==== Proof.LibReduceLead2.lean ====
/-
  A sum over the indices of a rank-4 array whose last two coordinates are fixed — what a reduction over the two
  leading axes adds up at each result index — is the double sum over the two leading coordinates.
-/
import Idealize.ShloMosaic.PureOps.Ideal
import Idealize.ShloMosaic.PureOps.Reduce
import Idealize.ShloMosaic.Lib.ValueIdx

noncomputable section

open scoped BigOperators

namespace Cert.LibReduceLead2

open Idealize.ShloMosaic Idealize.ShloMosaic.ValueIdx

/-- Over any commutative additive monoid and any extents: the indices of an `a × b × c × d` array that a reduction
    over axes 0 and 1 sends to the result index `j`, summed, are the pairs `(f, p)` of leading coordinates, summed,
    the array read at `(f, p, j 0, j 1)`. -/
theorem sum_filter_drop_lead2 {M : Type*} [AddCommMonoid M] {a b c d : Nat}
    (h : (⟨4, ![a, b, c, d]⟩ : Shape).ReducesTo [0, 1] ⟨2, ![c, d]⟩)
    (hd0 : ∀ i : (⟨4, ![a, b, c, d]⟩ : Shape).Idx, (h.drop i 0).val = (i 2).val)
    (hd1 : ∀ i : (⟨4, ![a, b, c, d]⟩ : Shape).Idx, (h.drop i 1).val = (i 3).val)
    (x : (⟨4, ![a, b, c, d]⟩ : Shape).Idx → M) (j : (⟨2, ![c, d]⟩ : Shape).Idx) :
    ∑ i ∈ Finset.univ.filter (fun i => h.drop i = j), x i = ∑ f : Fin a, ∑ p : Fin b, x (ix4 f p (j 0) (j 1)) := by
  have hinv : ∀ i : (⟨4, ![a, b, c, d]⟩ : Shape).Idx, h.drop i = j → ix4 (i 0) (i 1) (j 0) (j 1) = i := fun i hj => by
    funext q
    apply Fin.ext
    match q with
    | ⟨0, _⟩ => rfl
    | ⟨1, _⟩ => rfl
    | ⟨2, _⟩ => show (j 0).val = (i 2).val; rw [← hj]; exact hd0 i
    | ⟨3, _⟩ => show (j 1).val = (i 3).val; rw [← hj]; exact hd1 i
  rw [← Fintype.sum_prod_type' (f := fun (f : Fin a) (p : Fin b) => x (ix4 f p (j 0) (j 1)))]
  refine Finset.sum_nbij' (fun i => (i 0, i 1)) (fun fp => ix4 fp.1 fp.2 (j 0) (j 1)) ?_ ?_ ?_ ?_ ?_
  · intro i _; exact Finset.mem_univ _
  · intro fp _
    refine Finset.mem_filter.2 ⟨Finset.mem_univ _, ?_⟩
    funext q
    apply Fin.ext
    match q with
    | ⟨0, _⟩ => exact hd0 _
    | ⟨1, _⟩ => exact hd1 _
  · intro i hi; exact hinv i (Finset.mem_filter.1 hi).2
  · intro fp _; rfl
  · intro i hi; exact congrArg x (hinv i (Finset.mem_filter.1 hi).2).symm

end Cert.LibReduceLead2

end
-- ==== Proof.RefValue.lean ====
/-
  The reference's result, stage by stage, is the specification. Its 1×1 convolution is one 384-row product plus the
  bias spread along the nodes, re-laid as 3 × 128 rows: row 128·p + c of the flat result is entry (p, c) of the
  re-laid one. Its batched product contracts the node axis partition by partition. The pushed frame stack has the
  three products as frame 0 and the old frames 0..15 as frames 1..16, and the double reduction over (frame,
  partition) from zero is the 17 × 3 table's sum, which `Spec.table_sum` regroups by partition.
-/
import proofs.«122202_j86242943304449_2_alg».proof.Proof.Gen.ReferenceIdeal.Read
import proofs.«122202_j86242943304449_2_alg».proof.Proof.Spec
import proofs.«122202_j86242943304449_2_alg».proof.Proof.LibReduceLead2
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.Spec (row feat conv prod frames term out G)

variable (x0 : (⟨S1x128x4096x1, .f32⟩ : BufTy).Contents (Elt Ideal)) (x1 : (⟨S3x4096x4096, .f32⟩ : BufTy).Contents (Elt Ideal))
  (x2 : (⟨S17x3x128x4096, .f32⟩ : BufTy).Contents (Elt Ideal)) (x3 : (⟨S384x128, .f32⟩ : BufTy).Contents (Elt Ideal))
  (x4 : (⟨S384, .f32⟩ : BufTy).Contents (Elt Ideal))

/-- The squeezed features at (k, v). -/
theorem feat_eq (k : Fin 128) (v : Fin 4096) : val_main_v0 (F := Ideal) x0 (ix2 k v) = feat x0 k v := by
  rw [val_main_v0_apply]
  refine congrArg x0 (funext fun a => Fin.ext ?_)
  have hk := k.isLt; have hv := v.isLt
  match a with
  | ⟨0, _⟩ => rfl
  | ⟨1, _⟩ => show (k.val * 4096 + v.val) / 4096 % 128 = k.val; omega
  | ⟨2, _⟩ => show (k.val * 4096 + v.val) / 1 % 4096 = v.val; omega
  | ⟨3, _⟩ => rfl

/-- The flat convolution at row 128·p + c. -/
theorem conv_eq (p : Fin 3) (c : Fin 128) (v : Fin 4096) :
    val_main_v4 (F := Ideal) x0 x3 x4 (ix2 (row p c) v) = conv x0 x3 x4 p c v := by
  rw [val_main_v4_apply, val_main_v1_apply, val_main_v3_apply, val_main_v2_apply]
  show (∑ k : Fin 128, _) + _ = (∑ k : Fin 128, _) + _
  congr 1
  · refine Finset.sum_congr rfl fun k _ => ?_
    have e1 : lidx_main_v1 (ix2 (row p c) v) k = ix2 (row p c) k := funext fun a => Fin.ext (by
      match a with | ⟨0, _⟩ => rfl | ⟨1, _⟩ => rfl)
    have e2 : ridx_main_v1 (ix2 (row p c) v) k = ix2 k v := funext fun a => Fin.ext (by
      match a with | ⟨0, _⟩ => rfl | ⟨1, _⟩ => rfl)
    rw [e1, e2, feat_eq]
  · refine congrArg x4 (funext fun a => Fin.ext ?_)
    match a with | ⟨0, _⟩ => rfl

/-- The batched product at (p, c, w). -/
theorem prod_eq (p : Fin 3) (c : Fin 128) (w : Fin 4096) :
    val_main_v6 (F := Ideal) x0 x1 x3 x4 (ix3 p c w) = prod x0 x1 x3 x4 p c w := by
  rw [val_main_v6_apply]
  unfold Cert.Spec.prod
  refine Finset.sum_congr rfl fun v _ => ?_
  have e1 : lidx_main_v6 (ix3 p c w) v = ix3 p c v := funext fun a => Fin.ext (by
    match a with | ⟨0, _⟩ => rfl | ⟨1, _⟩ => rfl | ⟨2, _⟩ => rfl)
  have e2 : ridx_main_v6 (ix3 p c w) v = ix3 p v w := funext fun a => Fin.ext (by
    match a with | ⟨0, _⟩ => rfl | ⟨1, _⟩ => rfl | ⟨2, _⟩ => rfl)
  rw [e1, e2, val_main_v5_apply]
  have e3 : idx_main_v5 (ix3 p c v) = ix2 (row p c) v := funext fun a => Fin.ext (by
    have hp := p.isLt; have hc := c.isLt; have hv := v.isLt
    match a with
    | ⟨0, _⟩ => show ((p.val * 128 + c.val) * 4096 + v.val) / 4096 = p.val * 128 + c.val; omega
    | ⟨1, _⟩ => show ((p.val * 128 + c.val) * 4096 + v.val) % 4096 = v.val; omega)
  rw [e3, conv_eq]

/-- Frame 0 of the pushed stack is the products; -/
theorem stack_zero (p : Fin 3) (c : Fin 128) (w : Fin 4096) :
    val_main_v9 (F := Ideal) x0 x1 x2 x3 x4 (ix4 (0 : Fin 17) p c w) = prod x0 x1 x3 x4 p c w := by
  unfold val_main_v9
  rw [concatenate_pair_apply_left (t := S17x3x128x4096) (s₁ := S1x3x128x4096) (s₂ := S16x3x128x4096) (0 : Fin S17x3x128x4096.rank) _ _ _ (ix4 (0 : Fin 17) p c w) rfl (ix4 (0 : Fin 1) p c w)
    (fun b => by match b with | ⟨0, _⟩ => rfl | ⟨1, _⟩ => rfl | ⟨2, _⟩ => rfl | ⟨3, _⟩ => rfl)]
  rw [val_main_v7_apply]
  have e : idx_main_v7 (ix4 (0 : Fin 1) p c w) = ix3 p c w := funext fun a => Fin.ext (by
    match a with | ⟨0, _⟩ => rfl | ⟨1, _⟩ => rfl | ⟨2, _⟩ => rfl)
  rw [e, prod_eq]

/-- frame f + 1 is the old frame f. -/
theorem stack_succ (f : Fin 16) (p : Fin 3) (c : Fin 128) (w : Fin 4096) :
    val_main_v9 (F := Ideal) x0 x1 x2 x3 x4 (ix4 f.succ p c w) = x2 (ix4 f.castSucc p c w) := by
  unfold val_main_v9
  rw [concatenate_pair_apply_right (t := S17x3x128x4096) (s₁ := S1x3x128x4096) (s₂ := S16x3x128x4096) (0 : Fin S17x3x128x4096.rank) _ _ _ (ix4 f.succ p c w) rfl rfl (ix4 f p c w)
    (fun b hb => by
      match b with
      | ⟨0, _⟩ => exact absurd rfl hb
      | ⟨1, _⟩ => rfl | ⟨2, _⟩ => rfl | ⟨3, _⟩ => rfl)
    (by show f.val + 1 = f.val + 1; rfl)]
  rw [val_main_v8_apply]
  refine congrArg x2 (funext fun a => Fin.ext ?_)
  match a with | ⟨0, _⟩ => rfl | ⟨1, _⟩ => rfl | ⟨2, _⟩ => rfl | ⟨3, _⟩ => rfl

/-- The double reduction at (c, w): zero plus the 17 × 3 table's sum. -/
theorem reduce_eq (c : Fin 128) (w : Fin 4096) :
    val_main_v10 (F := Ideal) x0 x1 x2 x3 x4 (ix2 c w)
      = 0 + ∑ f : Fin 17, ∑ p : Fin 3, val_main_v9 (F := Ideal) x0 x1 x2 x3 x4 (ix4 f p c w) := by
  unfold val_main_v10 Host.reduceAdd
  rw [Ideal.hostReduceAdd_def]
  unfold Ideal.hostReduceAdd
  rw [Cert.LibReduceLead2.sum_filter_drop_lead2 reducesTo_S17x3x128x4096_S128x4096_d0_1
    (fun i => reducesTo_S17x3x128x4096_S128x4096_d0_1.drop_apply_val_of_eq i 0 2) (fun i => reducesTo_S17x3x128x4096_S128x4096_d0_1.drop_apply_val_of_eq i 1 3)]
  show Ideal.ofBits .f32 0x00000000#32 + _ = _
  rw [Ideal.ofBits_zero_f32]

/-- The reference's result is the specification's. -/
theorem result_eq : val_main_v13 (F := Ideal) x0 x1 x2 x3 x4 = G x0 x1 x2 x3 x4 := by
  funext i
  obtain ⟨z, c, w, rfl⟩ : ∃ (z : Fin 1) (c : Fin 128) (w : Fin 4096), i = ix3 z c w := ⟨i 0, i 1, i 2, eq_ix3 i⟩
  rw [val_main_v13_apply]
  have e : idx_main_v13 (ix3 z c w) = ix2 c w := funext fun a => Fin.ext (by
    match a with | ⟨0, _⟩ => rfl | ⟨1, _⟩ => rfl)
  rw [e, val_main_v12_apply, val_main_v11_apply, reduce_eq, feat_eq, val_main_call0_v0_apply, val_main_call0_cst_apply,
    Cert.Spec.table_sum]
  simp only [stack_zero, stack_succ]
  show max ((0 + _) + _) (Ideal.ofBits .f32 0x00000000#32) = _
  rw [Ideal.ofBits_zero_f32, zero_add]
  unfold Cert.Spec.G Cert.Spec.out Cert.Spec.term Cert.Spec.frames
  simp only [zero_add]

end Cert.ReferenceIdeal.RefValue

end
-- ==== Proof.lean ====
/-
  The certificate's five claims for the fused graph-convolution kernel against its reference.

  Both programs compute, at channel c and node w,
      max(Σ_{p<3} (Σ_v ((Σ_k W[128p+c, k]·x[k, v]) + b[128p+c]) · A_p[v, w] + Σ_{f<16} fifo[f, p, c, w]) + x[c, w], 0)
  over the extended reals. The kernel accumulates the three partitions' terms in order from zero in a scratch block,
  one column tile of 512 nodes at a time, and stores the clamped sum with the residual at the last partition; the
  reference stacks the three products on top of the sixteen kept frames and reduces the 17 × 3 stack at once. The
  two groupings of the same finite sum agree because addition of extended reals is commutative and associative; no
  precondition is used. The frames: each kernel program runs to the end at every grid point with its accumulator
  tracked from point to point, and the reference is a straight line of host operations.
-/
import proofs.«122202_j86242943304449_2_alg».proof.Defs
import proofs.«122202_j86242943304449_2_alg».proof.Proof.Gen.Kernel
import proofs.«122202_j86242943304449_2_alg».proof.Proof.Gen.KernelIdeal
import proofs.«122202_j86242943304449_2_alg».proof.Proof.Gen.ReferenceIdeal
import proofs.«122202_j86242943304449_2_alg».proof.Proof.Gen.Pre_finite_inputs
import proofs.«122202_j86242943304449_2_alg».proof.Proof.Gen.ReferenceIdeal.Read
import proofs.«122202_j86242943304449_2_alg».proof.Proof.KFrame
import proofs.«122202_j86242943304449_2_alg».proof.Proof.KIFinal
import proofs.«122202_j86242943304449_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Body.frame m ρ

/-- So does the kernel program read over the extended reals. -/
theorem frame_kernelIdeal : Cert.frame_KernelIdeal := fun m ρ _ => Cert.KernelIdeal.Body.frame m ρ

/-- The reference is a straight line of host operations. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel program and its reading over the extended reals. -/
theorem preserves : Cert.preserves_Kernel_KernelIdeal := trivial

/-- From memories agreeing on the five arguments both programs end with the specification's array. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
